-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x128 : Shape := ⟨2, ![10000, 128]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg7 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg4 : FVec F S64 .f32) (main_arg5 : FVec F S64x64 .f32) (main_arg6 : FVec F S128x64 .f32) (main_arg7 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S128x64 .f32 := Host.absf main_arg6
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg7 main_v33

def fn {F : FTy → Type} [FloatOps F] (main_arg0 : FVec F S10000x10000 .f32) (main_arg1 : FVec F S10000x128 .f32) (main_arg2 : FVec F S128x64 .f32) (main_arg3 : FVec F S128x64 .f32) (main_arg4 : FVec F S64 .f32) (main_arg5 : FVec F S64x64 .f32) (main_arg6 : FVec F S128x64 .f32) (main_arg7 : FVec F S64 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_arg6 main_arg7 main_v13 main_v16
-- ==== Kernel.lean ====
abbrev S10000x10000 : Shape := ⟨2, ![10000, 10000]⟩
abbrev S10000x128 : Shape := ⟨2, ![10000, 128]⟩
abbrev S128x64 : Shape := ⟨2, ![128, 64]⟩
abbrev S64 : Shape := ⟨1, ![64]⟩
abbrev S64x64 : Shape := ⟨2, ![64, 64]⟩
abbrev S1x64 : Shape := ⟨2, ![1, 64]⟩
abbrev S10000x64 : Shape := ⟨2, ![10000, 64]⟩
abbrev S400x10000 : Shape := ⟨2, ![400, 10000]⟩
abbrev S400x64 : Shape := ⟨2, ![400, 64]⟩

abbrev nBuf : Space → Nat
  | .hbm => 11
  | .vmem => 14
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x64, .f32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S128x64, .f32⟩
  | .hbm, ⟨7, _⟩ => ⟨S64, .f32⟩
  | .hbm, ⟨8, _⟩ => ⟨S1x64, .f32⟩
  | .hbm, ⟨9, _⟩ => ⟨S1x64, .f32⟩
  | .hbm, ⟨10, _⟩ => ⟨S10000x64, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x64, .f32⟩
  | .local _ .vmem, ⟨4, _⟩ => ⟨S128x64, .f32⟩
  | .local _ .vmem, ⟨5, _⟩ => ⟨S128x64, .f32⟩
  | .local _ .vmem, ⟨6, _⟩ => ⟨S64x64, .f32⟩
  | .local _ .vmem, ⟨7, _⟩ => ⟨S1x64, .f32⟩
  | .local _ .vmem, ⟨8, _⟩ => ⟨S1x64, .f32⟩
  | .local _ .vmem, ⟨9, _⟩ => ⟨S400x64, .f32⟩
  | .local _ .vmem, ⟨10, _⟩ => ⟨S400x64, .f32⟩
  | .local _ .vmem, ⟨11, _⟩ => ⟨S10000x64, .bf16⟩
  | .local _ .vmem, ⟨12, _⟩ => ⟨S10000x64, .f32⟩
  | .local _ .vmem, ⟨13, _⟩ => ⟨S10000x64, .bf16⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨2, ![2, 25], ![false, false]⟩

def k0_mult1 (i : grid0.Coords) : BitVec 32 :=
  let arg1 : BitVec 32 := BitVec.ofNat 32 (i 1).val
  let c400_i32 : BitVec 32 := 400#32
  let v5 : BitVec 32 := Scalar.muli arg1 c400_i32
  v5
def k0_cond2 (i : grid0.Coords) : BitVec 1 :=
  let arg0 : BitVec 32 := BitVec.ofNat 32 (i 0).val
  let c0_i32_3 : BitVec 32 := 0#32
  let v9 : BitVec 1 := Scalar.cmpi .eq arg0 c0_i32_3
  let v10 : BitVec 32 := Scalar.extui v9
  let c0_i32_4 : BitVec 32 := 0#32
  let v11 : BitVec 1 := Scalar.cmpi .ne v10 c0_i32_4
  v11

def k0_off1 (i : grid0.Coords) : Fin 2 → Nat :=
  let arg1 : BitVec 32 := BitVec.ofNat 32 (i 1).val
  let c400_i32 : BitVec 32 := 400#32
  let v5 : BitVec 32 := Scalar.muli arg1 c400_i32
  let v6 : BitVec 32 := v5
  let v25 : Index := Scalar.indexCast v6
  let c0_14 : Index := 0#32
  ![v25.toNat, 0]
def k0_cond3 (i : grid0.Coords) : BitVec 1 :=
  let arg0 : BitVec 32 := BitVec.ofNat 32 (i 0).val
  let c1_i32 : BitVec 32 := 1#32
  let v12 : BitVec 1 := Scalar.cmpi .eq arg0 c1_i32
  let v13 : BitVec 32 := Scalar.extui v12
  let c0_i32_5 : BitVec 32 := 0#32
  let v14 : BitVec 1 := Scalar.cmpi .ne v13 c0_i32_5
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let v0 : BitVec 32 := Scalar.muli arg0 arg1
  let c0_i32 : BitVec 32 := 0#32
  let c0_i32_0 : BitVec 32 := 0#32
  ![v0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S400x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  inb_S128x64_S128x64_0_0 : ∀ a, (![0, 0] : Fin 2 → Nat) a + S128x64.size a ≤ S128x64.size a
  h_S128x64 : 0 < S128x64.numel
  bitsLt_bf16_f32 : FTy.bits .bf16 < FTy.bits .f32
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  packedbf16_S10000x64_S10000x64_0_0 : (Rect.unit (s := S10000x64) ![0, 0] S10000x64.size inb_S10000x64_S10000x64_0_0).PackedRows (EltTy.packing .bf16)
  inb_S400x10000_S400x10000_0_0 : ∀ a, (![0, 0] : Fin 2 → Nat) a + S400x10000.size a ≤ S400x10000.size a
  h_S400x10000 : 0 < S400x10000.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  inb_S64x64_S64x64_0_0 : ∀ a, (![0, 0] : Fin 2 → Nat) a + S64x64.size a ≤ S64x64.size a
  h_S64x64 : 0 < S64x64.numel
  h_S400x64 : 0 < S400x64.numel
  shapeCasts_S400x64_S400x64 : S400x64.ShapeCasts S400x64
  inb_S400x64_S400x64_0_0 : ∀ a, (![0, 0] : Fin 2 → Nat) a + S400x64.size a ≤ S400x64.size a
  dot_S10000x128_S128x64_S10000x64_1_0_0_1_n_n_wf : DotDims.WF S10000x128 S128x64 S10000x64 [1] [0] [0] [1] [] []
  dot_S400x10000_S10000x64_S400x64_1_0_0_1_n_n_wf : DotDims.WF S400x10000 S10000x64 S400x64 [1] [0] [0] [1] [] []
  dot_S400x64_S64x64_S400x64_1_0_0_1_n_n_wf : DotDims.WF S400x64 S64x64 S400x64 [1] [0] [0] [1] [] []
  hrank0 : 0 < grid0.rank
  k0_mult1_dvd : ∀ i : grid0.Coords, 8 ∣ (k0_mult1 i).toNat
  k0_off1_inb : ∀ i : grid0.Coords, ∀ (k0_h2 : k0_cond2 i = 1#1), ∀ a, (k0_off1 i) a + S400x64.size a ≤ S10000x64.size a
  k0_off1_packedbf16 : ∀ i : grid0.Coords, ∀ (k0_h2 : k0_cond2 i = 1#1), (Rect.unit (s := S10000x64) (k0_off1 i) S400x64.size (k0_off1_inb i k0_h2)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S400x64.size a ≤ S10000x64.size a
  hwx0_8 : ∀ i : grid0.Coords, EltTy.bits .f32 = 32 ∨ (Rect.block (s := S10000x64) S400x64.size (cc0_transform_8 i) (hinb0_8 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf
def dot_S400x64_S64x64_S400x64_1_0_0_1_n_n : DotDims S400x64 S64x64 S400x64 where
  lhsContracting := [1]
  rhsContracting := [0]
  lhsNonContracting := [0]
  rhsNonContracting := [1]
  lhsBatch := []
  rhsBatch := []
  wf := dot_S400x64_S64x64_S400x64_1_0_0_1_n_n_wf

abbrev win0_0 : Pipeline.Window sig grid0 :=
  Pipeline.Window.ofSpec (Memref.whole main_arg0) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v2) S400x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) && !(k0_cond3 i == 1#1) | ⟨_ + 9, h⟩ => absurd h (Nat.not_lt.2 (Nat.le_add_left _ _))

class Facts : Prop extends Facts₀ where

variable [Facts]
-- ==== ReferenceIdeal.lean ====
abbrev S10000x10000 : Shape := ⟨2, ![10000, 10000]⟩
abbrev S10000x128 : Shape := ⟨2, ![10000, 128]⟩
abbrev S128x64 : Shape := ⟨2, ![128, 64]⟩
abbrev S64 : Shape := ⟨1, ![64]⟩
abbrev S64x64 : Shape := ⟨2, ![64, 64]⟩
abbrev S10000x64 : Shape := ⟨2, ![10000, 64]⟩
abbrev S1x64 : Shape := ⟨2, ![1, 64]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x64, .f32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S128x64, .f32⟩
  | .hbm, ⟨7, _⟩ => ⟨S64, .f32⟩
  | .hbm, ⟨8, _⟩ => ⟨S10000x64, .f32⟩
  | .hbm, ⟨9, _⟩ => ⟨S10000x64, .f32⟩
  | .hbm, ⟨10, _⟩ => ⟨S10000x64, .f32⟩
  | .hbm, ⟨11, _⟩ => ⟨S10000x64, .f32⟩
  | .hbm, ⟨12, _⟩ => ⟨S1x64, .f32⟩
  | .hbm, ⟨13, _⟩ => ⟨S10000x64, .f32⟩
  | .hbm, ⟨14, _⟩ => ⟨S10000x64, .f32⟩
  | .hbm, ⟨15, _⟩ => ⟨S_, .f32⟩
  | .hbm, ⟨16, _⟩ => ⟨S10000x64, .f32⟩
  | .hbm, ⟨17, _⟩ => ⟨S10000x64, .f32⟩
  | .hbm, ⟨18, _⟩ => ⟨S10000x64, .f32⟩
  | .hbm, ⟨19, _⟩ => ⟨S10000x64, .f32⟩
  | .hbm, ⟨20, _⟩ => ⟨S10000x64, .f32⟩
  | .hbm, ⟨21, _⟩ => ⟨S10000x64, .f32⟩
  | .hbm, ⟨22, _⟩ => ⟨S1x64, .f32⟩
  | .hbm, ⟨23, _⟩ => ⟨S10000x64, .f32⟩
  | .hbm, ⟨24, _⟩ => ⟨S10000x64, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call0_cst : Ref sig .tc := ⟨.hbm, 15, rfl⟩
abbrev main_call0_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x64_S10000x64_1_0_0_1_n_n_wf : DotDims.WF S10000x64 S64x64 S10000x64 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

class Facts : Prop extends Facts₀ where

variable [Facts]
-- ==== Proof.KBBase.lean ====
/-
  The grid of the one pallas_call is 2 × 25, walked row-major: point t is (pass, block) = (t / 25, t % 25).
  The body has three conditionals, on the grid coordinates alone: the prologue runs at point 0 only, the first
  pass at points 0 … 24, the second pass at points 25 … 49. The output window's block index is pass × block, so
  it stays at block 0 through the whole first pass and the first point of the second: its staging buffer is
  written back only at points 25 … 49. This module decides those facts over the grid once, names the staging
  and scratch memrefs as the pipeline passes them to the body, and restates the launch invariant with the
  three scratch buffers as memrefs owned at some contents.
-/
import proofs.«157266_g59210419142979_cont_9to1c4b_462_8_alg».proof.Proof.Gen.Kernel.Frame
import proofs.«157266_g59210419142979_cont_9to1c4b_462_8_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The conditions, in closed form over the grid -/

/-- The prologue's condition (pass = 0 and block = 0), as the body computes it. -/
abbrev condP (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- The prologue runs at the first point only. -/
theorem condP_iff : ∀ t : Fin cfg0.N, condP (grid0.coords t) ↔ t.val = 0 :=
  (by decide +kernel : ∀ t : Fin grid0.N, condP (grid0.coords t) ↔ t.val = 0)

/-- The first pass is points 0 … 24. -/
theorem cond2_iff : ∀ t : Fin cfg0.N, k0_cond2 (grid0.coords t) = 1#1 ↔ t.val < 25 :=
  (by decide +kernel : ∀ t : Fin grid0.N, k0_cond2 (grid0.coords t) = 1#1 ↔ t.val < 25)

/-- The second pass is points 25 … 49. -/
theorem cond3_iff : ∀ t : Fin cfg0.N, k0_cond3 (grid0.coords t) = 1#1 ↔ 25 ≤ t.val :=
  (by decide +kernel : ∀ t : Fin grid0.N, k0_cond3 (grid0.coords t) = 1#1 ↔ 25 ≤ t.val)

/-- The row offset of the slice the first pass reads and writes at point t: 400 rows per block. -/
theorem off1_eq : ∀ t : Fin cfg0.N, k0_off1 (grid0.coords t) = ![400 * (t.val % 25), 0] :=
  (by decide +kernel : ∀ t : Fin grid0.N, k0_off1 (grid0.coords t) = ![400 * (t.val % 25), 0])

/-- The output's staging buffer is written back exactly at the points of the second pass. -/
theorem flush8_iff : ∀ t : Fin cfg0.N, (cfg0.win 8).flush t = true ↔ 25 ≤ t.val :=
  (by decide +kernel : ∀ t : Fin grid0.N, win0_8.flush t = true ↔ 25 ≤ t.val)

/-- The output's block index at a point of the second pass is the point's block. -/
theorem index8_eq : ∀ t : Fin cfg0.N, 25 ≤ t.val → (cfg0.win 8).index t = ![t.val - 25, 0] :=
  (by decide +kernel : ∀ t : Fin grid0.N, 25 ≤ t.val → win0_8.index t = ![t.val - 25, 0])

/-- The adjacency's block index at a point is the point's block. -/
theorem index0_eq : ∀ t : Fin cfg0.N, (cfg0.win 0).index t = ![t.val % 25, 0] :=
  (by decide +kernel : ∀ t : Fin grid0.N, win0_0.index t = ![t.val % 25, 0])

/-! ## No window is idle anywhere -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
theorem live7 : ∀ t : Fin cfg0.N, cfg0.idle 7 (grid0.coords t) = false := by decide +kernel
theorem live8 : ∀ t : Fin cfg0.N, cfg0.idle 8 (grid0.coords t) = false := by decide +kernel

/-! ## The memrefs the body is called with -/

abbrev sm0 (t : Fin cfg0.N) : Memref sig .tc .vmem S400x10000 .f32 := win0_0.stage (cfg0.slots t 0)
abbrev hsm0 (t : Fin cfg0.N) : (sm0 t).IsWhole := hstage0_0 ((cfg0.slots t 0).cast nbuf0_0)
abbrev sm1 (t : Fin cfg0.N) : Memref sig .tc .vmem S10000x128 .f32 := win0_1.stage (cfg0.slots t 1)
abbrev hsm1 (t : Fin cfg0.N) : (sm1 t).IsWhole := hstage0_1 ((cfg0.slots t 1).cast nbuf0_1)
abbrev sm2 (t : Fin cfg0.N) : Memref sig .tc .vmem S128x64 .f32 := win0_2.stage (cfg0.slots t 2)
abbrev hsm2 (t : Fin cfg0.N) : (sm2 t).IsWhole := hstage0_2 ((cfg0.slots t 2).cast nbuf0_2)
abbrev sm3 (t : Fin cfg0.N) : Memref sig .tc .vmem S128x64 .f32 := win0_3.stage (cfg0.slots t 3)
abbrev hsm3 (t : Fin cfg0.N) : (sm3 t).IsWhole := hstage0_3 ((cfg0.slots t 3).cast nbuf0_3)
abbrev sm4 (t : Fin cfg0.N) : Memref sig .tc .vmem S128x64 .f32 := win0_4.stage (cfg0.slots t 4)
abbrev hsm4 (t : Fin cfg0.N) : (sm4 t).IsWhole := hstage0_4 ((cfg0.slots t 4).cast nbuf0_4)
abbrev sm5 (t : Fin cfg0.N) : Memref sig .tc .vmem S64x64 .f32 := win0_5.stage (cfg0.slots t 5)
abbrev hsm5 (t : Fin cfg0.N) : (sm5 t).IsWhole := hstage0_5 ((cfg0.slots t 5).cast nbuf0_5)
abbrev sm6 (t : Fin cfg0.N) : Memref sig .tc .vmem S1x64 .f32 := win0_6.stage (cfg0.slots t 6)
abbrev hsm6 (t : Fin cfg0.N) : (sm6 t).IsWhole := hstage0_6 ((cfg0.slots t 6).cast nbuf0_6)
abbrev sm7 (t : Fin cfg0.N) : Memref sig .tc .vmem S1x64 .f32 := win0_7.stage (cfg0.slots t 7)
abbrev hsm7 (t : Fin cfg0.N) : (sm7 t).IsWhole := hstage0_7 ((cfg0.slots t 7).cast nbuf0_7)
abbrev sm8 (t : Fin cfg0.N) : Memref sig .tc .vmem S400x64 .f32 := win0_8.stage (cfg0.slots t 8)
abbrev hsm8 (t : Fin cfg0.N) : (sm8 t).IsWhole := hstage0_8 ((cfg0.slots t 8).cast nbuf0_8)

/-- The three scratch operands: the first support (bf16), the residual (f32), the second support (bf16). -/
abbrev scr0 : Memref sig .tc .vmem S10000x64 .bf16 := Memref.whole cc0_scratch0
abbrev scr1 : Memref sig .tc .vmem S10000x64 .f32 := Memref.whole cc0_scratch1
abbrev scr2 : Memref sig .tc .vmem S10000x64 .bf16 := Memref.whole cc0_scratch2
abbrev hscr0 : (scr0).IsWhole := Memref.isWhole_whole _
abbrev hscr1 : (scr1).IsWhole := Memref.isWhole_whole _
abbrev hscr2 : (scr2).IsWhole := Memref.isWhole_whole _

/-- What the launch hands the region besides the windows: the three scratch buffers at some contents and the
    generator register at some state. -/
theorem PhiA_eq (c : Dev nD) :
    (Pipeline.ΦA spec0 c : sProp 𝕄)
      = iprop(iprop((∃ d, owns (c : Thread nD τ) scr0 fullShare d) ∗ (∃ d, owns (c : Thread nD τ) scr1 fullShare d) ∗ (∃ d, owns (c : Thread nD τ) scr2 fullShare d)) ∗ (∃ r, prngReg c r)) := by
  unfold Pipeline.ΦA; rw [scopedRest0_eq]; simp only [scr0, scr1, scr2, owns_whole]; try rfl

end Cert.Kernel.Body

end
-- ==== Proof.KBRunA.lean ====
/-
  The body at the first point: the prologue and the first pass both run. The prologue stores the first support
  (rounded to bf16) and the residual whole into their scratch buffers; the first pass then reads them back, and
  stores the first slice of the second support into its scratch and the same block, unrounded, into the output's
  staging buffer.
-/
import proofs.«157266_g59210419142979_cont_9to1c4b_462_8_alg».proof.Proof.KBBase

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The first point on whole memrefs: the inputs at their contents, the output's buffer and the first two scratch
    buffers at anything, the third scratch at `xs2`. It ends with the inputs as they were, the output's buffer and the
    first two scratch buffers with the body's stores written over something, and the third scratch with its store
    written over `xs2`. -/
noncomputable def runA (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x64 .f32) (harg4 : arg4.IsWhole) (arg5 : Memref sig .tc .vmem S128x64 .f32) (harg5 : arg5.IsWhole) (arg6 : Memref sig .tc .vmem S128x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S400x64 .f32) (harg10 : arg10.IsWhole) (arg11 : Memref sig .tc .vmem S10000x64 .bf16) (harg11 : arg11.IsWhole) (arg12 : Memref sig .tc .vmem S10000x64 .f32) (harg12 : arg12.IsWhole) (arg13 : Memref sig .tc .vmem S10000x64 .bf16) (harg13 : arg13.IsWhole) (hc0 : condP i) (hc1 : k0_cond2 i = 1#1) (hc2 : ¬k0_cond3 i = 1#1)
    (x0 : Vec F S400x10000 .f32) (x1 : Vec F S10000x128 .f32) (x2 : Vec F S128x64 .f32) (x3 : Vec F S128x64 .f32) (x4 : Vec F S128x64 .f32) (x5 : Vec F S64x64 .f32) (x6 : Vec F S1x64 .f32) (x7 : Vec F S1x64 .f32) (xs2 : Vec F S10000x64 .bf16) :
    Σ' (L10 : List (View.Piece (Elt F) S400x64 .f32)) (L11 : List (View.Piece (Elt F) S10000x64 .bf16)) (L12 : List (View.Piece (Elt F) S10000x64 .f32)), { L13 : List (View.Piece (Elt F) S10000x64 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (arg13.view.loc (c : Thread nD τ) ↦[arg13.view.set]{fullShare} arg13.view.writes (Elt F) (harg13.unread xs2) L13)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg13.eq_unread hfs2
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; iexact H8
    isplitl [HS0]
    · iexists _; iexact HS0
    isplitl [HS1]
    · iexists _; iexact HS1
    iexact HS2

end Cert.Kernel.Body

end
-- ==== Proof.KBRunB.lean ====
/-
  The body at a point of the first pass other than the first point (points 1 … 24): the prologue is skipped, the
  first pass runs, the second is skipped. It reads the adjacency block, the first support and the residual from
  scratch, the bias and the second weight; it stores one slice of 400 rows of the second support into its scratch
  and the same block, unrounded, into the output's staging buffer. The stores it makes are found by running the
  body symbolically; what they hold is read off in a later module.
-/
import proofs.«157266_g59210419142979_cont_9to1c4b_462_8_alg».proof.Proof.KBBase

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The first pass away from the first point, on whole memrefs: the inputs at their contents, the output's buffer
    at anything, the first two scratch buffers at `xs0`, `xs1`, the third at `xs2`. It ends with the inputs and the
    first two scratch buffers as they were, the output's buffer with its stores written over something, and the
    third scratch with its stores written over `xs2`. -/
noncomputable def runB (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x64 .f32) (harg4 : arg4.IsWhole) (arg5 : Memref sig .tc .vmem S128x64 .f32) (harg5 : arg5.IsWhole) (arg6 : Memref sig .tc .vmem S128x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S400x64 .f32) (harg10 : arg10.IsWhole) (arg11 : Memref sig .tc .vmem S10000x64 .bf16) (harg11 : arg11.IsWhole) (arg12 : Memref sig .tc .vmem S10000x64 .f32) (harg12 : arg12.IsWhole) (arg13 : Memref sig .tc .vmem S10000x64 .bf16) (harg13 : arg13.IsWhole) (hc0 : ¬condP i) (hc1 : k0_cond2 i = 1#1) (hc2 : ¬k0_cond3 i = 1#1)
    (x0 : Vec F S400x10000 .f32) (x1 : Vec F S10000x128 .f32) (x2 : Vec F S128x64 .f32) (x3 : Vec F S128x64 .f32) (x4 : Vec F S128x64 .f32) (x5 : Vec F S64x64 .f32) (x6 : Vec F S1x64 .f32) (x7 : Vec F S1x64 .f32) (xs0 : Vec F S10000x64 .bf16) (xs1 : Vec F S10000x64 .f32) (xs2 : Vec F S10000x64 .bf16) :
    Σ' (L10 : List (View.Piece (Elt F) S400x64 .f32)), { L13 : List (View.Piece (Elt F) S10000x64 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xs0 ∗ owns (c : Thread nD τ) arg12 fullShare xs1 ∗ owns (c : Thread nD τ) arg13 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L10) ∗ owns (c : Thread nD τ) arg11 fullShare xs0 ∗ owns (c : Thread nD τ) arg12 fullShare xs1 ∗ (arg13.view.loc (c : Thread nD τ) ↦[arg13.view.set]{fullShare} arg13.view.writes (Elt F) (harg13.unread xs2) L13)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs0; obtain rfl := harg12.eq_unread hfs1; obtain rfl := harg13.eq_unread hfs2
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; iexact H8
    isplitl [HS0]
    · iexists _; isplitr; · ipureintro; exact harg11.read_unread _
      iexact HS0
    isplitl [HS1]
    · iexists _; isplitr; · ipureintro; exact harg12.read_unread _
      iexact HS1
    iexact HS2

end Cert.Kernel.Body

end
-- ==== Proof.KBRunC.lean ====
/-
  The body at a point of the second pass (points 25 … 49): only the last conditional runs. It reads the adjacency
  block, the whole second support from its scratch and the second bias, and stores the output block whole into the
  output's staging buffer; no scratch buffer is written.
-/
import proofs.«157266_g59210419142979_cont_9to1c4b_462_8_alg».proof.Proof.KBBase

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The second pass on whole memrefs: the inputs at their contents, the output's buffer at anything, the three scratch
    buffers at `xs0`, `xs1`, `xs2`. It ends with everything as it was but the output's buffer, which has the body's
    stores written over something. -/
noncomputable def runC (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x64 .f32) (harg4 : arg4.IsWhole) (arg5 : Memref sig .tc .vmem S128x64 .f32) (harg5 : arg5.IsWhole) (arg6 : Memref sig .tc .vmem S128x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S400x64 .f32) (harg10 : arg10.IsWhole) (arg11 : Memref sig .tc .vmem S10000x64 .bf16) (harg11 : arg11.IsWhole) (arg12 : Memref sig .tc .vmem S10000x64 .f32) (harg12 : arg12.IsWhole) (arg13 : Memref sig .tc .vmem S10000x64 .bf16) (harg13 : arg13.IsWhole) (hc0 : ¬condP i) (hc1 : ¬k0_cond2 i = 1#1) (hc2 : k0_cond3 i = 1#1)
    (x0 : Vec F S400x10000 .f32) (x1 : Vec F S10000x128 .f32) (x2 : Vec F S128x64 .f32) (x3 : Vec F S128x64 .f32) (x4 : Vec F S128x64 .f32) (x5 : Vec F S64x64 .f32) (x6 : Vec F S1x64 .f32) (x7 : Vec F S1x64 .f32) (xs0 : Vec F S10000x64 .bf16) (xs1 : Vec F S10000x64 .f32) (xs2 : Vec F S10000x64 .bf16) :
    { L10 : List (View.Piece (Elt F) S400x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xs0 ∗ owns (c : Thread nD τ) arg12 fullShare xs1 ∗ owns (c : Thread nD τ) arg13 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L10) ∗ owns (c : Thread nD τ) arg11 fullShare xs0 ∗ owns (c : Thread nD τ) arg12 fullShare xs1 ∗ owns (c : Thread nD τ) arg13 fullShare xs2) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs0; obtain rfl := harg12.eq_unread hfs1; obtain rfl := harg13.eq_unread hfs2
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; iexact H8
    isplitl [HS0]
    · iexists _; isplitr; · ipureintro; exact harg11.read_unread _
      iexact HS0
    isplitl [HS1]
    · iexists _; isplitr; · ipureintro; exact harg12.read_unread _
      iexact HS1
    iexists _; isplitr; · ipureintro; exact harg13.read_unread _
    iexact HS2

end Cert.Kernel.Body

end
-- ==== Proof.KBVals.lean ====
/-
  What the kernel's buffers hold, point by point, as closed terms of the argument arrays' blocks.
  After the first point the first scratch holds the first support (x · (W1 + Wh1), rounded to bf16) and the second the
  residual (x · Wh2): the prologue's two stores, of the whole arrays x, W1, Wh1, Wh2 as the first point's blocks.
  At a point t of the first pass the body computes the block of 400 rows of the second support that starts at row
  400 · t — from the adjacency's block at t, the first support, the first bias, the second weight and the same rows of
  the residual — and stores it, rounded, into those rows of the third scratch and, unrounded, into the output's staging
  buffer. So the third scratch, once the first pass is over, holds at row y the block of point y / 400 at its row
  y % 400. At a point of the second pass the output's staging buffer receives the adjacency's block times that
  whole second support, plus the second bias.
-/
import proofs.«157266_g59210419142979_cont_9to1c4b_462_8_alg».proof.Proof.KBBase
import Idealize.ShloMosaic.Lib.ValueIdx

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The grid's first point. -/
def t0 : Fin cfg0.N := ⟨0, by rw [show cfg0.N = 50 from N_0]; decide⟩

/-- The first support as the prologue leaves it in the first scratch. -/
def sup1 (c : Dev nD) : Vec F S10000x64 .bf16 := k0_pay1 (iblk m c 1 t0) (iblk m c 2 t0) (iblk m c 3 t0)

/-- The residual as the prologue leaves it in the second scratch. -/
def res (c : Dev nD) : Vec F S10000x64 .f32 := k0_pay2 (iblk m c 1 t0) (iblk m c 4 t0)

/-- The 400 rows of a 10000-row scratch that the first pass reads and writes at a point of it. -/
abbrev rowsAt (i : grid0.Coords) (h : k0_cond2 i = 1#1) : Rect S10000x64 :=
  Rect.unit (s := S10000x64) (k0_off1 i) S400x64.size (k0_off1_inb i h)

/-- The block of the second support computed at point `t` of the first pass, unrounded (what the output's staging
    buffer receives there). -/
def blk2 (c : Dev nD) (t : Fin cfg0.N) (h : t.val < 25) : Vec F S400x64 .f32 :=
  k0_pay4 (iblk m c 0 t) (sup1 m c) (iblk m c 6 t) (iblk m c 5 t)
    (View.ld (res m c) (rowsAt (grid0.coords t) ((cond2_iff t).mpr h)))

/-- The same block rounded to bf16 (what the third scratch receives in its rows). -/
def blk2b (c : Dev nD) (t : Fin cfg0.N) (h : t.val < 25) : Vec F S400x64 .bf16 :=
  k0_pay5 (iblk m c 0 t) (sup1 m c) (iblk m c 6 t) (iblk m c 5 t)
    (View.ld (res m c) (rowsAt (grid0.coords t) ((cond2_iff t).mpr h)))

theorem row_div_lt (y : S10000x64.Idx) : (y 0).val / 400 < 25 := by
  have : (y 0).val < 10000 := (y 0).isLt
  omega

/-- The point of the first pass that computes row `y 0` of the second support. -/
def ptOf (y : S10000x64.Idx) : Fin cfg0.N := ⟨(y 0).val / 400, by rw [show cfg0.N = 50 from N_0]; have := row_div_lt y; omega⟩

/-- The whole second support, as the first pass leaves it in the third scratch: row `y 0` is row `y 0 % 400` of the
    block computed at point `y 0 / 400`. -/
def sup2 (c : Dev nD) : Vec F S10000x64 .bf16 := fun y =>
  blk2b m c (ptOf y) (row_div_lt y) (ValueIdx.ix2 ⟨(y 0).val % 400, Nat.mod_lt _ (by decide)⟩ (y 1))

/-- What the body leaves in the output's staging buffer at point `t`: in the first pass the unrounded block of the
    second support, in the second pass the output's block. -/
def outBlk (c : Dev nD) (t : Fin cfg0.N) : Vec F S400x64 .f32 :=
  if h : t.val < 25 then blk2 m c t h else k0_pay6 (iblk m c 0 t) (sup2 m c) (iblk m c 7 t)

theorem outBlk_first (c : Dev nD) (t : Fin cfg0.N) (h : t.val < 25) : outBlk m c t = blk2 m c t h := dif_pos h

theorem outBlk_second (c : Dev nD) (t : Fin cfg0.N) (h : ¬t.val < 25) :
    outBlk m c t = k0_pay6 (iblk m c 0 t) (sup2 m c) (iblk m c 7 t) := dif_neg h

/-- The third scratch holds the second support on its first `400 · n` rows. -/
def AgreeUpTo (c : Dev nD) (n : ℕ) (d : Vec F S10000x64 .bf16) : Prop :=
  ∀ y : S10000x64.Idx, (y 0).val < 400 * n → d y = sup2 m c y

theorem agree_full (c : Dev nD) (d : Vec F S10000x64 .bf16) (h : AgreeUpTo m c 25 d) : d = sup2 m c :=
  funext fun y => h y (by have : (y 0).val < 10000 := (y 0).isLt; omega)

end Cert.Kernel.Body

end
-- ==== Proof.KBPieces.lean ====
/-
  What the body's stores hold, read back. Each store found by the symbolic runs is a payload of the skeleton over
  loads of whole buffers (a load through the whole rectangle at zero offsets reads the contents) or, for the residual,
  of a slice of 400 rows. A buffer stored whole reads back its payload whatever it held; the third scratch, stored
  one slice of rows at a time, reads back the payload on those rows and what it held elsewhere.
-/
import proofs.«157266_g59210419142979_cont_9to1c4b_462_8_alg».proof.Proof.KBRunA
import proofs.«157266_g59210419142979_cont_9to1c4b_462_8_alg».proof.Proof.KBRunB
import proofs.«157266_g59210419142979_cont_9to1c4b_462_8_alg».proof.Proof.KBRunC
import proofs.«157266_g59210419142979_cont_9to1c4b_462_8_alg».proof.Proof.KBVals
import Idealize.ShloMosaic.Lib.Pipeline.Value
import Idealize.ShloMosaic.Lib.WritesUnit

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := by
  funext a; fin_cases a <;> rfl

/-- One store through the whole rectangle at zero offsets reads back as its payload, whatever was there. -/
theorem read_writes_whole {sig' : RefSig} {κ : Kind} {sp : Space} {S : Shape} {e : EltTy} {Val : EltTy → Type} [∀ e, Nonempty (Val e)]
    (v : View sig' κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon _ _ _ (fun y => ⟨_, List.mem_singleton_self _, View.mem_set_unit_zero h inb y⟩),
    View.canon_unit_zero h]

section CaseB
variable (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x64 .f32) (harg4 : arg4.IsWhole) (arg5 : Memref sig .tc .vmem S128x64 .f32) (harg5 : arg5.IsWhole) (arg6 : Memref sig .tc .vmem S128x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S400x64 .f32) (harg10 : arg10.IsWhole) (arg11 : Memref sig .tc .vmem S10000x64 .bf16) (harg11 : arg11.IsWhole) (arg12 : Memref sig .tc .vmem S10000x64 .f32) (harg12 : arg12.IsWhole) (arg13 : Memref sig .tc .vmem S10000x64 .bf16) (harg13 : arg13.IsWhole) (hc0 : ¬condP i) (hc1 : k0_cond2 i = 1#1) (hc2 : ¬k0_cond3 i = 1#1)
    (x0 : Vec F S400x10000 .f32) (x1 : Vec F S10000x128 .f32) (x2 : Vec F S128x64 .f32) (x3 : Vec F S128x64 .f32) (x4 : Vec F S128x64 .f32) (x5 : Vec F S64x64 .f32) (x6 : Vec F S1x64 .f32) (x7 : Vec F S1x64 .f32) (xs0 : Vec F S10000x64 .bf16) (xs1 : Vec F S10000x64 .f32) (xs2 : Vec F S10000x64 .bf16)

/-- Away from the first point the first pass leaves in the output's staging buffer the unrounded block of the second
    support. -/
theorem runB_out (f : arg10.view.ty.Contents (Elt F)) :
    arg10.view.read (Elt F) (arg10.view.writes (Elt F) f (runB c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1 xs2).1)
      = k0_pay4 x0 xs0 x6 x5 (View.ld xs1 (rowsAt i hc1)) := by
  unfold runB; dsimp only
  rw [read_writes_whole (S := S400x64) _ _ hz2]
  simp only [View.readAt_eq_ld, Memref.IsWhole.read_unread, View.ld_unit_zero (S := S400x10000) hz2, View.ld_unit_zero (S := S10000x64) hz2, View.ld_unit_zero (S := S10000x128) hz2, View.ld_unit_zero (S := S128x64) hz2, View.ld_unit_zero (S := S64x64) hz2, View.ld_unit_zero (S := S1x64) hz2, View.ld_unit_zero (S := S400x64) hz2]

/-- and, in the third scratch, the rounded block on the rows of its slice, -/
theorem runB_scr_mem {o : ℕ} (ho : k0_off1 i = ![o, 0]) (y : S10000x64.Idx) (x : S400x64.Idx)
    (hx0 : (y 0).val = o + (x 0).val) (hx1 : (y 1).val = (x 1).val) :
    arg13.view.read (Elt F) (arg13.view.writes (Elt F) (harg13.unread xs2) (runB c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1 xs2).2.1) y
      = k0_pay5 x0 xs0 x6 x5 (View.ld xs1 (rowsAt i hc1)) x := by
  unfold runB; dsimp only
  refine (View.read_writes_cons_rows_of_mem (d := ![10000, 64]) arg13.view _ (off := k0_off1 i) (size := ![400, 64]) _ _ [] y x ho hx0 hx1).trans ?_
  simp only [View.readAt_eq_ld, Memref.IsWhole.read_unread, View.ld_unit_zero (S := S400x10000) hz2, View.ld_unit_zero (S := S10000x64) hz2, View.ld_unit_zero (S := S10000x128) hz2, View.ld_unit_zero (S := S128x64) hz2, View.ld_unit_zero (S := S64x64) hz2, View.ld_unit_zero (S := S1x64) hz2, View.ld_unit_zero (S := S400x64) hz2]

/-- what it held on every other row. -/
theorem runB_scr_not_mem {o : ℕ} (ho : k0_off1 i = ![o, 0]) (y : S10000x64.Idx)
    (hy : (y 0).val < o ∨ o + 400 ≤ (y 0).val) :
    arg13.view.read (Elt F) (arg13.view.writes (Elt F) (harg13.unread xs2) (runB c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1 xs2).2.1) y = xs2 y := by
  unfold runB; dsimp only
  refine (View.read_writes_cons_rows_of_not_mem (d := ![10000, 64]) arg13.view _ (off := k0_off1 i) (size := ![400, 64]) _ _ [] y ho rfl hy).trans ?_
  rw [View.writes_nil, harg13.read_unread]

end CaseB

section CaseC
variable (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x64 .f32) (harg4 : arg4.IsWhole) (arg5 : Memref sig .tc .vmem S128x64 .f32) (harg5 : arg5.IsWhole) (arg6 : Memref sig .tc .vmem S128x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S400x64 .f32) (harg10 : arg10.IsWhole) (arg11 : Memref sig .tc .vmem S10000x64 .bf16) (harg11 : arg11.IsWhole) (arg12 : Memref sig .tc .vmem S10000x64 .f32) (harg12 : arg12.IsWhole) (arg13 : Memref sig .tc .vmem S10000x64 .bf16) (harg13 : arg13.IsWhole) (hc0 : ¬condP i) (hc1 : ¬k0_cond2 i = 1#1) (hc2 : k0_cond3 i = 1#1)
    (x0 : Vec F S400x10000 .f32) (x1 : Vec F S10000x128 .f32) (x2 : Vec F S128x64 .f32) (x3 : Vec F S128x64 .f32) (x4 : Vec F S128x64 .f32) (x5 : Vec F S64x64 .f32) (x6 : Vec F S1x64 .f32) (x7 : Vec F S1x64 .f32) (xs0 : Vec F S10000x64 .bf16) (xs1 : Vec F S10000x64 .f32) (xs2 : Vec F S10000x64 .bf16)

/-- The second pass leaves in the output's staging buffer the adjacency block times the third scratch's contents, plus
    the second bias. -/
theorem runC_out (f : arg10.view.ty.Contents (Elt F)) :
    arg10.view.read (Elt F) (arg10.view.writes (Elt F) f (runC c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1 xs2).1) = k0_pay6 x0 xs2 x7 := by
  unfold runC; dsimp only
  rw [read_writes_whole (S := S400x64) _ _ hz2]
  simp only [View.readAt_eq_ld, Memref.IsWhole.read_unread, View.ld_unit_zero (S := S400x10000) hz2, View.ld_unit_zero (S := S10000x64) hz2, View.ld_unit_zero (S := S10000x128) hz2, View.ld_unit_zero (S := S128x64) hz2, View.ld_unit_zero (S := S64x64) hz2, View.ld_unit_zero (S := S1x64) hz2, View.ld_unit_zero (S := S400x64) hz2]

end CaseC

section CaseA
variable (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x64 .f32) (harg4 : arg4.IsWhole) (arg5 : Memref sig .tc .vmem S128x64 .f32) (harg5 : arg5.IsWhole) (arg6 : Memref sig .tc .vmem S128x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S400x64 .f32) (harg10 : arg10.IsWhole) (arg11 : Memref sig .tc .vmem S10000x64 .bf16) (harg11 : arg11.IsWhole) (arg12 : Memref sig .tc .vmem S10000x64 .f32) (harg12 : arg12.IsWhole) (arg13 : Memref sig .tc .vmem S10000x64 .bf16) (harg13 : arg13.IsWhole) (hc0 : condP i) (hc1 : k0_cond2 i = 1#1) (hc2 : ¬k0_cond3 i = 1#1)
    (x0 : Vec F S400x10000 .f32) (x1 : Vec F S10000x128 .f32) (x2 : Vec F S128x64 .f32) (x3 : Vec F S128x64 .f32) (x4 : Vec F S128x64 .f32) (x5 : Vec F S64x64 .f32) (x6 : Vec F S1x64 .f32) (x7 : Vec F S1x64 .f32) (xs2 : Vec F S10000x64 .bf16)

/-- At the first point the prologue leaves the first support in the first scratch, -/
theorem runA_scr0 (f : arg11.view.ty.Contents (Elt F)) :
    arg11.view.read (Elt F) (arg11.view.writes (Elt F) f (runA c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs2).2.1) = k0_pay1 x1 x2 x3 := by
  unfold runA; dsimp only; sl_unfold_words
  rw [read_writes_whole (S := S10000x64) _ _ hz2]
  simp only [View.readAt_eq_ld, Memref.IsWhole.read_unread, View.ld_unit_zero (S := S400x10000) hz2, View.ld_unit_zero (S := S10000x64) hz2, View.ld_unit_zero (S := S10000x128) hz2, View.ld_unit_zero (S := S128x64) hz2, View.ld_unit_zero (S := S64x64) hz2, View.ld_unit_zero (S := S1x64) hz2, View.ld_unit_zero (S := S400x64) hz2]

/-- the residual in the second, -/
theorem runA_scr1 (f : arg12.view.ty.Contents (Elt F)) :
    arg12.view.read (Elt F) (arg12.view.writes (Elt F) f (runA c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs2).2.2.1) = k0_pay2 x1 x4 := by
  unfold runA; dsimp only; sl_unfold_words
  rw [read_writes_whole (S := S10000x64) _ _ hz2]
  simp only [View.readAt_eq_ld, Memref.IsWhole.read_unread, View.ld_unit_zero (S := S400x10000) hz2, View.ld_unit_zero (S := S10000x64) hz2, View.ld_unit_zero (S := S10000x128) hz2, View.ld_unit_zero (S := S128x64) hz2, View.ld_unit_zero (S := S64x64) hz2, View.ld_unit_zero (S := S1x64) hz2, View.ld_unit_zero (S := S400x64) hz2]

/-- and the first pass, reading both back, leaves the unrounded first block of the second support in the output's
    staging buffer, -/
theorem runA_out (f : arg10.view.ty.Contents (Elt F)) :
    arg10.view.read (Elt F) (arg10.view.writes (Elt F) f (runA c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs2).1)
      = k0_pay4 x0 (k0_pay1 x1 x2 x3) x6 x5 (View.ld (k0_pay2 x1 x4) (rowsAt i hc1)) := by
  unfold runA; dsimp only
  rw [read_writes_whole (S := S400x64) _ _ hz2]
  sl_unfold_words
  simp only [View.readAt_eq_ld, Memref.IsWhole.read_unread, View.ld_unit_zero (S := S400x10000) hz2, View.ld_unit_zero (S := S10000x64) hz2, View.ld_unit_zero (S := S10000x128) hz2, View.ld_unit_zero (S := S128x64) hz2, View.ld_unit_zero (S := S64x64) hz2, View.ld_unit_zero (S := S1x64) hz2, View.ld_unit_zero (S := S400x64) hz2, read_writes_whole (S := S10000x64) _ _ hz2, View.readCov_unit_zero (S := S10000x64) _ hz2]
  rfl

/-- the rounded block on the first rows of the third scratch, -/
theorem runA_scr_mem {o : ℕ} (ho : k0_off1 i = ![o, 0]) (y : S10000x64.Idx) (x : S400x64.Idx)
    (hx0 : (y 0).val = o + (x 0).val) (hx1 : (y 1).val = (x 1).val) :
    arg13.view.read (Elt F) (arg13.view.writes (Elt F) (harg13.unread xs2) (runA c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs2).2.2.2.1) y
      = k0_pay5 x0 (k0_pay1 x1 x2 x3) x6 x5 (View.ld (k0_pay2 x1 x4) (rowsAt i hc1)) x := by
  unfold runA; dsimp only
  refine (View.read_writes_cons_rows_of_mem (d := ![10000, 64]) arg13.view _ (off := k0_off1 i) (size := ![400, 64]) _ _ [] y x ho hx0 hx1).trans ?_
  sl_unfold_words
  simp only [View.readAt_eq_ld, Memref.IsWhole.read_unread, View.ld_unit_zero (S := S400x10000) hz2, View.ld_unit_zero (S := S10000x64) hz2, View.ld_unit_zero (S := S10000x128) hz2, View.ld_unit_zero (S := S128x64) hz2, View.ld_unit_zero (S := S64x64) hz2, View.ld_unit_zero (S := S1x64) hz2, View.ld_unit_zero (S := S400x64) hz2, read_writes_whole (S := S10000x64) _ _ hz2, View.readCov_unit_zero (S := S10000x64) _ hz2]
  rfl

/-- and what the third scratch held on every other row. -/
theorem runA_scr_not_mem {o : ℕ} (ho : k0_off1 i = ![o, 0]) (y : S10000x64.Idx)
    (hy : (y 0).val < o ∨ o + 400 ≤ (y 0).val) :
    arg13.view.read (Elt F) (arg13.view.writes (Elt F) (harg13.unread xs2) (runA c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs2).2.2.2.1) y = xs2 y := by
  unfold runA; dsimp only
  refine (View.read_writes_cons_rows_of_not_mem (d := ![10000, 64]) arg13.view _ (off := k0_off1 i) (size := ![400, 64]) _ _ [] y ho rfl hy).trans ?_
  rw [View.writes_nil, harg13.read_unread]

end CaseA

end Cert.Kernel.Body

end
-- ==== Proof.KBFrame.lean ====
/-
  The frame of the one pallas_call, with every buffer's contents named. Between points the region's invariant holds
  the first scratch at the first support, the second at the residual, and the third at contents that agree with the
  second support on the rows the first pass has filled so far (400 more after each of its points; all 10000 from the
  end of the first pass on). At each point the body is one of three runs — the first point, the rest of the first
  pass, the second pass — and leaves the output's staging buffer at the block named for the point; the input windows'
  buffers hold their blocks throughout.
-/
import proofs.«157266_g59210419142979_cont_9to1c4b_462_8_alg».proof.Proof.KBPieces

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The invariant between points -/

/-- Before the first point: what the launch hands over (every scratch at anything). After point `n`: the first two
    scratch buffers at the first support and the residual, the third agreeing with the second support on its first
    `400 · (n + 1)` rows, the generator register at some state. -/
def Phi (c : Dev nD) : ℕ → sProp 𝕄
  | 0 => Pipeline.ΦA spec0 c
  | n + 1 => iprop(iprop(owns (c : Thread nD τ) scr0 fullShare (sup1 m c) ∗ owns (c : Thread nD τ) scr1 fullShare (res m c) ∗ (∃ d, ⌜AgreeUpTo m c (n + 1) d⌝ ∗ owns (c : Thread nD τ) scr2 fullShare d)) ∗ (∃ r, prngReg c r))

theorem Phi_succ (c : Dev nD) (n : ℕ) :
    Phi m c (n + 1) = iprop(iprop(owns (c : Thread nD τ) scr0 fullShare (sup1 m c) ∗ owns (c : Thread nD τ) scr1 fullShare (res m c) ∗ (∃ d, ⌜AgreeUpTo m c (n + 1) d⌝ ∗ owns (c : Thread nD τ) scr2 fullShare d)) ∗ (∃ r, prngReg c r)) := rfl

theorem Phi_pos (c : Dev nD) (n : ℕ) (hn : n ≠ 0) :
    Phi m c n = iprop(iprop(owns (c : Thread nD τ) scr0 fullShare (sup1 m c) ∗ owns (c : Thread nD τ) scr1 fullShare (res m c) ∗ (∃ d, ⌜AgreeUpTo m c n d⌝ ∗ owns (c : Thread nD τ) scr2 fullShare d)) ∗ (∃ r, prngReg c r)) := by
  cases n with
  | zero => exact absurd rfl hn
  | succ n => rfl

/-! ## The proof data -/

/-- The arrays as the region finds them; after the body at point `t` each input's buffer at its block and the
    output's at the block named for the point; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outBlk m c t
  Φ t := Phi m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = outBlk m c t := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (sm0 t) fullShare ((dats m 0 c).before 0 t d))
    ∗ (∃ d, owns (c : Thread nD τ) (sm1 t) fullShare ((dats m 0 c).before 1 t d))
    ∗ (∃ d, owns (c : Thread nD τ) (sm2 t) fullShare ((dats m 0 c).before 2 t d))
    ∗ (∃ d, owns (c : Thread nD τ) (sm3 t) fullShare ((dats m 0 c).before 3 t d))
    ∗ (∃ d, owns (c : Thread nD τ) (sm4 t) fullShare ((dats m 0 c).before 4 t d))
    ∗ (∃ d, owns (c : Thread nD τ) (sm5 t) fullShare ((dats m 0 c).before 5 t d))
    ∗ (∃ d, owns (c : Thread nD τ) (sm6 t) fullShare ((dats m 0 c).before 6 t d))
    ∗ (∃ d, owns (c : Thread nD τ) (sm7 t) fullShare ((dats m 0 c).before 7 t d))
    ∗ (∃ d, owns (c : Thread nD τ) (sm8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

/-- Filling the rows of point `t` extends the agreement by 400 rows. -/
theorem agree_step (c : Dev nD) (t : Fin cfg0.N) (h : t.val < 25) (d d' : Vec F S10000x64 .bf16)
    (hd : AgreeUpTo m c t.val d)
    (hin : ∀ (y : S10000x64.Idx) (x : S400x64.Idx), (y 0).val = 400 * t.val + (x 0).val → (y 1).val = (x 1).val → d' y = blk2b m c t h x)
    (hout : ∀ y : S10000x64.Idx, ((y 0).val < 400 * t.val ∨ 400 * t.val + 400 ≤ (y 0).val) → d' y = d y) :
    AgreeUpTo m c (t.val + 1) d' := by
  intro y hy
  by_cases hlt : (y 0).val < 400 * t.val
  · rw [hout y (Or.inl hlt)]; exact hd y hlt
  · have hq : (y 0).val / 400 = t.val := by omega
    have hpt : ptOf y = t := Fin.ext hq
    rw [hin y (ValueIdx.ix2 ⟨(y 0).val % 400, Nat.mod_lt _ (by decide)⟩ (y 1)) (by show (y 0).val = 400 * t.val + (y 0).val % 400; omega) rfl]
    unfold sup2
    have key : ∀ (s : Fin cfg0.N) (hs : s.val < 25), s = t → blk2b m c s hs = blk2b m c t h := by
      intro s hs e; subst e; rfl
    rw [key (ptOf y) (row_div_lt y) hpt]

/-- Once the first pass is over the agreement is total, whatever the row bound. -/
theorem agree_mono (c : Dev nD) (n n' : ℕ) (hn : 25 ≤ n) (d : Vec F S10000x64 .bf16) (hd : AgreeUpTo m c n d) :
    AgreeUpTo m c n' d := fun y _ => hd y (by have : (y 0).val < 10000 := (y 0).isLt; omega)

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).owesAt () t.succ = (dats m 0 c).owesAt () t.castSucc from rfl]
  rw [show (dats m 0 c).Φ t.succ = Phi m c (t.val + 1) from rfl, Phi_succ]
  rw [show (dats m 0 c).Φ t.castSucc = Phi m c t.val from by dsimp only [dats]; simp only [Fin.coe_castSucc]]
  rw [show (dats m 0 c).leavesExact 0 t = owns (c : Thread nD τ) (sm0 t) fullShare (iblk m c 0 t) from by
    unfold Dat.leavesExact; rw [live0 t]; dsimp only [dats]]
  rw [show (dats m 0 c).leavesExact 1 t = owns (c : Thread nD τ) (sm1 t) fullShare (iblk m c 1 t) from by
    unfold Dat.leavesExact; rw [live1 t]; dsimp only [dats]]
  rw [show (dats m 0 c).leavesExact 2 t = owns (c : Thread nD τ) (sm2 t) fullShare (iblk m c 2 t) from by
    unfold Dat.leavesExact; rw [live2 t]; dsimp only [dats]]
  rw [show (dats m 0 c).leavesExact 3 t = owns (c : Thread nD τ) (sm3 t) fullShare (iblk m c 3 t) from by
    unfold Dat.leavesExact; rw [live3 t]; dsimp only [dats]]
  rw [show (dats m 0 c).leavesExact 4 t = owns (c : Thread nD τ) (sm4 t) fullShare (iblk m c 4 t) from by
    unfold Dat.leavesExact; rw [live4 t]; dsimp only [dats]]
  rw [show (dats m 0 c).leavesExact 5 t = owns (c : Thread nD τ) (sm5 t) fullShare (iblk m c 5 t) from by
    unfold Dat.leavesExact; rw [live5 t]; dsimp only [dats]]
  rw [show (dats m 0 c).leavesExact 6 t = owns (c : Thread nD τ) (sm6 t) fullShare (iblk m c 6 t) from by
    unfold Dat.leavesExact; rw [live6 t]; dsimp only [dats]]
  rw [show (dats m 0 c).leavesExact 7 t = owns (c : Thread nD τ) (sm7 t) fullShare (iblk m c 7 t) from by
    unfold Dat.leavesExact; rw [live7 t]; dsimp only [dats]]
  rw [show (dats m 0 c).leavesExact 8 t = owns (c : Thread nD τ) (sm8 t) fullShare (outBlk m c t) from by
    unfold Dat.leavesExact; rw [live8 t]; dsimp only [dats]]
  have hN : t.val < 50 := lt_of_lt_of_eq t.isLt (show cfg0.N = 50 from N_0)
  by_cases hz : t.val = 0
  · -- the first point: the prologue, then the first pass
    have h25 : t.val < 25 := by omega
    have ht0 : t = t0 := Fin.ext hz
    rw [show Phi m c t.val = Pipeline.ΦA spec0 c from by rw [hz]; rfl, PhiA_eq]
    iintro ⟨⟨⟨⟨%e0, HS0⟩, ⟨%e1, HS1⟩, ⟨%e2, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runA c (grid0.coords t) _ _ _ _ _ _ _ _ _ _ _ _ _ _ _ _ _ _ _ _ _ _ _ _ ((condP_iff t).mpr hz) ((cond2_iff t).mpr h25) (fun h => absurd ((cond3_iff t).mp h) (by omega)) (iblk m c 0 t) (iblk m c 1 t) (iblk m c 2 t) (iblk m c 3 t) (iblk m c 4 t) (iblk m c 5 t) (iblk m c 6 t) (iblk m c 7 t) e2).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexists _; iexact HS0
    isplitl [HS1]; · iexists _; iexact HS1
    isplitl [HS2]; · iexact HS2
    iintro ⟨H0, H1, H2, H3, H4, H5, H6, H7, ⟨%f8, H8⟩, ⟨%g0, HS0⟩, ⟨%g1, HS1⟩, HS2⟩
    isplitl [HS0 HS1 HS2 Hg]
    · isplitl [HS0 HS1 HS2]
      · isplitl [HS0]
        · unfold owns; iexists _; isplitr
          swap; · iexact HS0
          ipureintro; rw [runA_scr0]; subst ht0; rfl
        isplitl [HS1]
        · unfold owns; iexists _; isplitr
          swap; · iexact HS1
          ipureintro; rw [runA_scr1]; subst ht0; rfl
        iexists _; isplitr
        swap
        · unfold owns; iexists _; isplitr
          swap; · iexact HS2
          ipureintro; rfl
        ipureintro
        have hoff := off1_eq t
        rw [Nat.mod_eq_of_lt h25] at hoff
        refine agree_step m c t h25 e2 _ (fun y hy => absurd hy (by omega)) ?_ ?_
        · intro y x hx0 hx1
          rw [runA_scr_mem (ho := hoff) (y := y) (x := x) (hx0 := hx0) (hx1 := hx1)]
          subst ht0; rfl
        · intro y hy
          exact runA_scr_not_mem (ho := hoff) (y := y) (hy := hy) ..
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; rw [runA_out, outBlk_first m c t h25]; subst ht0; rfl
  · rw [Phi_pos m c t.val hz]
    by_cases h25 : t.val < 25
    · -- the rest of the first pass
      iintro ⟨⟨⟨HS0, HS1, ⟨%e2, %he2, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runB c (grid0.coords t) _ _ _ _ _ _ _ _ _ _ _ _ _ _ _ _ _ _ _ _ _ _ _ _ (fun h => hz ((condP_iff t).mp h)) ((cond2_iff t).mpr h25) (fun h => absurd ((cond3_iff t).mp h) (by omega)) (iblk m c 0 t) (iblk m c 1 t) (iblk m c 2 t) (iblk m c 3 t) (iblk m c 4 t) (iblk m c 5 t) (iblk m c 6 t) (iblk m c 7 t) (sup1 m c) (res m c) e2).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      isplitl [HS2]; · iexact HS2
      iintro ⟨H0, H1, H2, H3, H4, H5, H6, H7, ⟨%f8, H8⟩, HS0, HS1, HS2⟩
      isplitl [HS0 HS1 HS2 Hg]
      · isplitl [HS0 HS1 HS2]
        · isplitl [HS0]; · iexact HS0
          isplitl [HS1]; · iexact HS1
          iexists _; isplitr
          swap
          · unfold owns; iexists _; isplitr
            swap; · iexact HS2
            ipureintro; rfl
          ipureintro
          have hoff := off1_eq t
          rw [Nat.mod_eq_of_lt h25] at hoff
          refine agree_step m c t h25 e2 _ he2 ?_ ?_
          · intro y x hx0 hx1
            rw [runB_scr_mem (ho := hoff) (y := y) (x := x) (hx0 := hx0) (hx1 := hx1)]
            rfl
          · intro y hy
            exact runB_scr_not_mem (ho := hoff) (y := y) (hy := hy) ..
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; rw [runB_out, outBlk_first m c t h25]; rfl
    · -- the second pass
      iintro ⟨⟨⟨HS0, HS1, ⟨%e2, %he2, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      have hfull : e2 = sup2 m c := agree_full m c e2 (agree_mono m c t.val 25 (by omega) e2 he2)
      iapply ((runC c (grid0.coords t) _ _ _ _ _ _ _ _ _ _ _ _ _ _ _ _ _ _ _ _ _ _ _ _ (fun h => hz ((condP_iff t).mp h)) (fun h => h25 ((cond2_iff t).mp h)) ((cond3_iff t).mpr (by omega)) (iblk m c 0 t) (iblk m c 1 t) (iblk m c 2 t) (iblk m c 3 t) (iblk m c 4 t) (iblk m c 5 t) (iblk m c 6 t) (iblk m c 7 t) (sup1 m c) (res m c) e2).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      isplitl [HS2]; · iexact HS2
      iintro ⟨H0, H1, H2, H3, H4, H5, H6, H7, ⟨%f8, H8⟩, HS0, HS1, HS2⟩
      isplitl [HS0 HS1 HS2 Hg]
      · isplitl [HS0 HS1 HS2]
        · isplitl [HS0]; · iexact HS0
          isplitl [HS1]; · iexact HS1
          iexists _; isplitr
          swap; · iexact HS2
          ipureintro; exact agree_mono m c t.val (t.val + 1) (by omega) e2 he2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; rw [runC_out, outBlk_second m c t h25, hfull]

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Pipeline.ΦA spec0 c from rfl]
  try exact Idealize.SL.BI.Entails.refl _

/-- After the last point the invariant gives the launch's back: the scratch contents are forgotten. -/
theorem hout (c : Dev nD) : (dats m 0 c).Φ (Fin.last cfg0.N) ⊢ Pipeline.ΦA spec0 c := by
  rw [show (dats m 0 c).Φ (Fin.last cfg0.N) = Phi m c (Fin.last cfg0.N).val from rfl,
    Phi_pos m c _ (by rw [Fin.val_last]; have : cfg0.N = 50 := N_0; omega), PhiA_eq]
  iintro ⟨⟨HS0, HS1, ⟨%d, -, HS2⟩⟩, Hg⟩
  isplitl [HS0 HS1 HS2]
  · isplitl [HS0]
    · iexists _; iexact HS0
    isplitl [HS1]
    · iexists _; iexact HS1
    iexists _; iexact HS2
  iexact Hg

/-! ## The run and the frame -/

set_option backward.isDefEq.respectTransparency.types false in
/-- Every weakly fair execution of @main terminates, every array of the pipeline ends at what the write-backs of the
    proof data leave, every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim's post, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.Kernel.Body

end
-- ==== Proof.KIBase.lean ====
/-
  The grid of the one pallas_call is 2 × 25, walked row-major: point t is (pass, block) = (t / 25, t % 25).
  The body has three conditionals, on the grid coordinates alone: the prologue runs at point 0 only, the first
  pass at points 0 … 24, the second pass at points 25 … 49. The output window's block index is pass × block, so
  it stays at block 0 through the whole first pass and the first point of the second: its staging buffer is
  written back only at points 25 … 49. This module decides those facts over the grid once, names the staging
  and scratch memrefs as the pipeline passes them to the body, and restates the launch invariant with the
  three scratch buffers as memrefs owned at some contents.
-/
import proofs.«157266_g59210419142979_cont_9to1c4b_462_8_alg».proof.Proof.Gen.KernelIdeal.Frame
import proofs.«157266_g59210419142979_cont_9to1c4b_462_8_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The conditions, in closed form over the grid -/

/-- The prologue's condition (pass = 0 and block = 0), as the body computes it. -/
abbrev condP (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- The prologue runs at the first point only. -/
theorem condP_iff : ∀ t : Fin cfg0.N, condP (grid0.coords t) ↔ t.val = 0 :=
  (by decide +kernel : ∀ t : Fin grid0.N, condP (grid0.coords t) ↔ t.val = 0)

/-- The first pass is points 0 … 24. -/
theorem cond2_iff : ∀ t : Fin cfg0.N, k0_cond2 (grid0.coords t) = 1#1 ↔ t.val < 25 :=
  (by decide +kernel : ∀ t : Fin grid0.N, k0_cond2 (grid0.coords t) = 1#1 ↔ t.val < 25)

/-- The second pass is points 25 … 49. -/
theorem cond3_iff : ∀ t : Fin cfg0.N, k0_cond3 (grid0.coords t) = 1#1 ↔ 25 ≤ t.val :=
  (by decide +kernel : ∀ t : Fin grid0.N, k0_cond3 (grid0.coords t) = 1#1 ↔ 25 ≤ t.val)

/-- The row offset of the slice the first pass reads and writes at point t: 400 rows per block. -/
theorem off1_eq : ∀ t : Fin cfg0.N, k0_off1 (grid0.coords t) = ![400 * (t.val % 25), 0] :=
  (by decide +kernel : ∀ t : Fin grid0.N, k0_off1 (grid0.coords t) = ![400 * (t.val % 25), 0])

/-- The output's staging buffer is written back exactly at the points of the second pass. -/
theorem flush8_iff : ∀ t : Fin cfg0.N, (cfg0.win 8).flush t = true ↔ 25 ≤ t.val :=
  (by decide +kernel : ∀ t : Fin grid0.N, win0_8.flush t = true ↔ 25 ≤ t.val)

/-- The output's block index at a point of the second pass is the point's block. -/
theorem index8_eq : ∀ t : Fin cfg0.N, 25 ≤ t.val → (cfg0.win 8).index t = ![t.val - 25, 0] :=
  (by decide +kernel : ∀ t : Fin grid0.N, 25 ≤ t.val → win0_8.index t = ![t.val - 25, 0])

/-- The adjacency's block index at a point is the point's block. -/
theorem index0_eq : ∀ t : Fin cfg0.N, (cfg0.win 0).index t = ![t.val % 25, 0] :=
  (by decide +kernel : ∀ t : Fin grid0.N, win0_0.index t = ![t.val % 25, 0])

/-! ## No window is idle anywhere -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
theorem live7 : ∀ t : Fin cfg0.N, cfg0.idle 7 (grid0.coords t) = false := by decide +kernel
theorem live8 : ∀ t : Fin cfg0.N, cfg0.idle 8 (grid0.coords t) = false := by decide +kernel

/-! ## The memrefs the body is called with -/

abbrev sm0 (t : Fin cfg0.N) : Memref sig .tc .vmem S400x10000 .f32 := win0_0.stage (cfg0.slots t 0)
abbrev hsm0 (t : Fin cfg0.N) : (sm0 t).IsWhole := hstage0_0 ((cfg0.slots t 0).cast nbuf0_0)
abbrev sm1 (t : Fin cfg0.N) : Memref sig .tc .vmem S10000x128 .f32 := win0_1.stage (cfg0.slots t 1)
abbrev hsm1 (t : Fin cfg0.N) : (sm1 t).IsWhole := hstage0_1 ((cfg0.slots t 1).cast nbuf0_1)
abbrev sm2 (t : Fin cfg0.N) : Memref sig .tc .vmem S128x64 .f32 := win0_2.stage (cfg0.slots t 2)
abbrev hsm2 (t : Fin cfg0.N) : (sm2 t).IsWhole := hstage0_2 ((cfg0.slots t 2).cast nbuf0_2)
abbrev sm3 (t : Fin cfg0.N) : Memref sig .tc .vmem S128x64 .f32 := win0_3.stage (cfg0.slots t 3)
abbrev hsm3 (t : Fin cfg0.N) : (sm3 t).IsWhole := hstage0_3 ((cfg0.slots t 3).cast nbuf0_3)
abbrev sm4 (t : Fin cfg0.N) : Memref sig .tc .vmem S128x64 .f32 := win0_4.stage (cfg0.slots t 4)
abbrev hsm4 (t : Fin cfg0.N) : (sm4 t).IsWhole := hstage0_4 ((cfg0.slots t 4).cast nbuf0_4)
abbrev sm5 (t : Fin cfg0.N) : Memref sig .tc .vmem S64x64 .f32 := win0_5.stage (cfg0.slots t 5)
abbrev hsm5 (t : Fin cfg0.N) : (sm5 t).IsWhole := hstage0_5 ((cfg0.slots t 5).cast nbuf0_5)
abbrev sm6 (t : Fin cfg0.N) : Memref sig .tc .vmem S1x64 .f32 := win0_6.stage (cfg0.slots t 6)
abbrev hsm6 (t : Fin cfg0.N) : (sm6 t).IsWhole := hstage0_6 ((cfg0.slots t 6).cast nbuf0_6)
abbrev sm7 (t : Fin cfg0.N) : Memref sig .tc .vmem S1x64 .f32 := win0_7.stage (cfg0.slots t 7)
abbrev hsm7 (t : Fin cfg0.N) : (sm7 t).IsWhole := hstage0_7 ((cfg0.slots t 7).cast nbuf0_7)
abbrev sm8 (t : Fin cfg0.N) : Memref sig .tc .vmem S400x64 .f32 := win0_8.stage (cfg0.slots t 8)
abbrev hsm8 (t : Fin cfg0.N) : (sm8 t).IsWhole := hstage0_8 ((cfg0.slots t 8).cast nbuf0_8)

/-- The three scratch operands: the first support (bf16), the residual (f32), the second support (bf16). -/
abbrev scr0 : Memref sig .tc .vmem S10000x64 .bf16 := Memref.whole cc0_scratch0
abbrev scr1 : Memref sig .tc .vmem S10000x64 .f32 := Memref.whole cc0_scratch1
abbrev scr2 : Memref sig .tc .vmem S10000x64 .bf16 := Memref.whole cc0_scratch2
abbrev hscr0 : (scr0).IsWhole := Memref.isWhole_whole _
abbrev hscr1 : (scr1).IsWhole := Memref.isWhole_whole _
abbrev hscr2 : (scr2).IsWhole := Memref.isWhole_whole _

/-- What the launch hands the region besides the windows: the three scratch buffers at some contents and the
    generator register at some state. -/
theorem PhiA_eq (c : Dev nD) :
    (Pipeline.ΦA spec0 c : sProp 𝕄)
      = iprop(iprop((∃ d, owns (c : Thread nD τ) scr0 fullShare d) ∗ (∃ d, owns (c : Thread nD τ) scr1 fullShare d) ∗ (∃ d, owns (c : Thread nD τ) scr2 fullShare d)) ∗ (∃ r, prngReg c r)) := by
  unfold Pipeline.ΦA; rw [scopedRest0_eq]; simp only [scr0, scr1, scr2, owns_whole]; try rfl

end Cert.KernelIdeal.Body

end
-- ==== Proof.KIRunA.lean ====
/-
  The body at the first point: the prologue and the first pass both run. The prologue stores the first support
  (rounded to bf16) and the residual whole into their scratch buffers; the first pass then reads them back, and
  stores the first slice of the second support into its scratch and the same block, unrounded, into the output's
  staging buffer.
-/
import proofs.«157266_g59210419142979_cont_9to1c4b_462_8_alg».proof.Proof.KIBase

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The first point on whole memrefs: the inputs at their contents, the output's buffer and the first two scratch
    buffers at anything, the third scratch at `xs2`. It ends with the inputs as they were, the output's buffer and the
    first two scratch buffers with the body's stores written over something, and the third scratch with its store
    written over `xs2`. -/
noncomputable def runA (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x64 .f32) (harg4 : arg4.IsWhole) (arg5 : Memref sig .tc .vmem S128x64 .f32) (harg5 : arg5.IsWhole) (arg6 : Memref sig .tc .vmem S128x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S400x64 .f32) (harg10 : arg10.IsWhole) (arg11 : Memref sig .tc .vmem S10000x64 .bf16) (harg11 : arg11.IsWhole) (arg12 : Memref sig .tc .vmem S10000x64 .f32) (harg12 : arg12.IsWhole) (arg13 : Memref sig .tc .vmem S10000x64 .bf16) (harg13 : arg13.IsWhole) (hc0 : condP i) (hc1 : k0_cond2 i = 1#1) (hc2 : ¬k0_cond3 i = 1#1)
    (x0 : Vec F S400x10000 .f32) (x1 : Vec F S10000x128 .f32) (x2 : Vec F S128x64 .f32) (x3 : Vec F S128x64 .f32) (x4 : Vec F S128x64 .f32) (x5 : Vec F S64x64 .f32) (x6 : Vec F S1x64 .f32) (x7 : Vec F S1x64 .f32) (xs2 : Vec F S10000x64 .bf16) :
    Σ' (L10 : List (View.Piece (Elt F) S400x64 .f32)) (L11 : List (View.Piece (Elt F) S10000x64 .bf16)) (L12 : List (View.Piece (Elt F) S10000x64 .f32)), { L13 : List (View.Piece (Elt F) S10000x64 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (arg13.view.loc (c : Thread nD τ) ↦[arg13.view.set]{fullShare} arg13.view.writes (Elt F) (harg13.unread xs2) L13)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg13.eq_unread hfs2
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; iexact H8
    isplitl [HS0]
    · iexists _; iexact HS0
    isplitl [HS1]
    · iexists _; iexact HS1
    iexact HS2

end Cert.KernelIdeal.Body

end
-- ==== Proof.KIRunB.lean ====
/-
  The body at a point of the first pass other than the first point (points 1 … 24): the prologue is skipped, the
  first pass runs, the second is skipped. It reads the adjacency block, the first support and the residual from
  scratch, the bias and the second weight; it stores one slice of 400 rows of the second support into its scratch
  and the same block, unrounded, into the output's staging buffer. The stores it makes are found by running the
  body symbolically; what they hold is read off in a later module.
-/
import proofs.«157266_g59210419142979_cont_9to1c4b_462_8_alg».proof.Proof.KIBase

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The first pass away from the first point, on whole memrefs: the inputs at their contents, the output's buffer
    at anything, the first two scratch buffers at `xs0`, `xs1`, the third at `xs2`. It ends with the inputs and the
    first two scratch buffers as they were, the output's buffer with its stores written over something, and the
    third scratch with its stores written over `xs2`. -/
noncomputable def runB (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x64 .f32) (harg4 : arg4.IsWhole) (arg5 : Memref sig .tc .vmem S128x64 .f32) (harg5 : arg5.IsWhole) (arg6 : Memref sig .tc .vmem S128x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S400x64 .f32) (harg10 : arg10.IsWhole) (arg11 : Memref sig .tc .vmem S10000x64 .bf16) (harg11 : arg11.IsWhole) (arg12 : Memref sig .tc .vmem S10000x64 .f32) (harg12 : arg12.IsWhole) (arg13 : Memref sig .tc .vmem S10000x64 .bf16) (harg13 : arg13.IsWhole) (hc0 : ¬condP i) (hc1 : k0_cond2 i = 1#1) (hc2 : ¬k0_cond3 i = 1#1)
    (x0 : Vec F S400x10000 .f32) (x1 : Vec F S10000x128 .f32) (x2 : Vec F S128x64 .f32) (x3 : Vec F S128x64 .f32) (x4 : Vec F S128x64 .f32) (x5 : Vec F S64x64 .f32) (x6 : Vec F S1x64 .f32) (x7 : Vec F S1x64 .f32) (xs0 : Vec F S10000x64 .bf16) (xs1 : Vec F S10000x64 .f32) (xs2 : Vec F S10000x64 .bf16) :
    Σ' (L10 : List (View.Piece (Elt F) S400x64 .f32)), { L13 : List (View.Piece (Elt F) S10000x64 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xs0 ∗ owns (c : Thread nD τ) arg12 fullShare xs1 ∗ owns (c : Thread nD τ) arg13 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L10) ∗ owns (c : Thread nD τ) arg11 fullShare xs0 ∗ owns (c : Thread nD τ) arg12 fullShare xs1 ∗ (arg13.view.loc (c : Thread nD τ) ↦[arg13.view.set]{fullShare} arg13.view.writes (Elt F) (harg13.unread xs2) L13)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs0; obtain rfl := harg12.eq_unread hfs1; obtain rfl := harg13.eq_unread hfs2
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; iexact H8
    isplitl [HS0]
    · iexists _; isplitr; · ipureintro; exact harg11.read_unread _
      iexact HS0
    isplitl [HS1]
    · iexists _; isplitr; · ipureintro; exact harg12.read_unread _
      iexact HS1
    iexact HS2

end Cert.KernelIdeal.Body

end
-- ==== Proof.KIRunC.lean ====
/-
  The body at a point of the second pass (points 25 … 49): only the last conditional runs. It reads the adjacency
  block, the whole second support from its scratch and the second bias, and stores the output block whole into the
  output's staging buffer; no scratch buffer is written.
-/
import proofs.«157266_g59210419142979_cont_9to1c4b_462_8_alg».proof.Proof.KIBase

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The second pass on whole memrefs: the inputs at their contents, the output's buffer at anything, the three scratch
    buffers at `xs0`, `xs1`, `xs2`. It ends with everything as it was but the output's buffer, which has the body's
    stores written over something. -/
noncomputable def runC (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x64 .f32) (harg4 : arg4.IsWhole) (arg5 : Memref sig .tc .vmem S128x64 .f32) (harg5 : arg5.IsWhole) (arg6 : Memref sig .tc .vmem S128x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S400x64 .f32) (harg10 : arg10.IsWhole) (arg11 : Memref sig .tc .vmem S10000x64 .bf16) (harg11 : arg11.IsWhole) (arg12 : Memref sig .tc .vmem S10000x64 .f32) (harg12 : arg12.IsWhole) (arg13 : Memref sig .tc .vmem S10000x64 .bf16) (harg13 : arg13.IsWhole) (hc0 : ¬condP i) (hc1 : ¬k0_cond2 i = 1#1) (hc2 : k0_cond3 i = 1#1)
    (x0 : Vec F S400x10000 .f32) (x1 : Vec F S10000x128 .f32) (x2 : Vec F S128x64 .f32) (x3 : Vec F S128x64 .f32) (x4 : Vec F S128x64 .f32) (x5 : Vec F S64x64 .f32) (x6 : Vec F S1x64 .f32) (x7 : Vec F S1x64 .f32) (xs0 : Vec F S10000x64 .bf16) (xs1 : Vec F S10000x64 .f32) (xs2 : Vec F S10000x64 .bf16) :
    { L10 : List (View.Piece (Elt F) S400x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xs0 ∗ owns (c : Thread nD τ) arg12 fullShare xs1 ∗ owns (c : Thread nD τ) arg13 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L10) ∗ owns (c : Thread nD τ) arg11 fullShare xs0 ∗ owns (c : Thread nD τ) arg12 fullShare xs1 ∗ owns (c : Thread nD τ) arg13 fullShare xs2) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs0; obtain rfl := harg12.eq_unread hfs1; obtain rfl := harg13.eq_unread hfs2
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; iexact H8
    isplitl [HS0]
    · iexists _; isplitr; · ipureintro; exact harg11.read_unread _
      iexact HS0
    isplitl [HS1]
    · iexists _; isplitr; · ipureintro; exact harg12.read_unread _
      iexact HS1
    iexists _; isplitr; · ipureintro; exact harg13.read_unread _
    iexact HS2

end Cert.KernelIdeal.Body

end
-- ==== Proof.KIVals.lean ====
/-
  What the kernel's buffers hold, point by point, as closed terms of the argument arrays' blocks.
  After the first point the first scratch holds the first support (x · (W1 + Wh1), rounded to bf16) and the second the
  residual (x · Wh2): the prologue's two stores, of the whole arrays x, W1, Wh1, Wh2 as the first point's blocks.
  At a point t of the first pass the body computes the block of 400 rows of the second support that starts at row
  400 · t — from the adjacency's block at t, the first support, the first bias, the second weight and the same rows of
  the residual — and stores it, rounded, into those rows of the third scratch and, unrounded, into the output's staging
  buffer. So the third scratch, once the first pass is over, holds at row y the block of point y / 400 at its row
  y % 400. At a point of the second pass the output's staging buffer receives the adjacency's block times that
  whole second support, plus the second bias.
-/
import proofs.«157266_g59210419142979_cont_9to1c4b_462_8_alg».proof.Proof.KIBase
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The grid's first point. -/
def t0 : Fin cfg0.N := ⟨0, by rw [show cfg0.N = 50 from N_0]; decide⟩

/-- The first support as the prologue leaves it in the first scratch. -/
def sup1 (c : Dev nD) : Vec F S10000x64 .bf16 := k0_pay1 (iblk m c 1 t0) (iblk m c 2 t0) (iblk m c 3 t0)

/-- The residual as the prologue leaves it in the second scratch. -/
def res (c : Dev nD) : Vec F S10000x64 .f32 := k0_pay2 (iblk m c 1 t0) (iblk m c 4 t0)

/-- The 400 rows of a 10000-row scratch that the first pass reads and writes at a point of it. -/
abbrev rowsAt (i : grid0.Coords) (h : k0_cond2 i = 1#1) : Rect S10000x64 :=
  Rect.unit (s := S10000x64) (k0_off1 i) S400x64.size (k0_off1_inb i h)

/-- The block of the second support computed at point `t` of the first pass, unrounded (what the output's staging
    buffer receives there). -/
def blk2 (c : Dev nD) (t : Fin cfg0.N) (h : t.val < 25) : Vec F S400x64 .f32 :=
  k0_pay4 (iblk m c 0 t) (sup1 m c) (iblk m c 6 t) (iblk m c 5 t)
    (View.ld (res m c) (rowsAt (grid0.coords t) ((cond2_iff t).mpr h)))

/-- The same block rounded to bf16 (what the third scratch receives in its rows). -/
def blk2b (c : Dev nD) (t : Fin cfg0.N) (h : t.val < 25) : Vec F S400x64 .bf16 :=
  k0_pay5 (iblk m c 0 t) (sup1 m c) (iblk m c 6 t) (iblk m c 5 t)
    (View.ld (res m c) (rowsAt (grid0.coords t) ((cond2_iff t).mpr h)))

theorem row_div_lt (y : S10000x64.Idx) : (y 0).val / 400 < 25 := by
  have : (y 0).val < 10000 := (y 0).isLt
  omega

/-- The point of the first pass that computes row `y 0` of the second support. -/
def ptOf (y : S10000x64.Idx) : Fin cfg0.N := ⟨(y 0).val / 400, by rw [show cfg0.N = 50 from N_0]; have := row_div_lt y; omega⟩

/-- The whole second support, as the first pass leaves it in the third scratch: row `y 0` is row `y 0 % 400` of the
    block computed at point `y 0 / 400`. -/
def sup2 (c : Dev nD) : Vec F S10000x64 .bf16 := fun y =>
  blk2b m c (ptOf y) (row_div_lt y) (ValueIdx.ix2 ⟨(y 0).val % 400, Nat.mod_lt _ (by decide)⟩ (y 1))

/-- What the body leaves in the output's staging buffer at point `t`: in the first pass the unrounded block of the
    second support, in the second pass the output's block. -/
def outBlk (c : Dev nD) (t : Fin cfg0.N) : Vec F S400x64 .f32 :=
  if h : t.val < 25 then blk2 m c t h else k0_pay6 (iblk m c 0 t) (sup2 m c) (iblk m c 7 t)

theorem outBlk_first (c : Dev nD) (t : Fin cfg0.N) (h : t.val < 25) : outBlk m c t = blk2 m c t h := dif_pos h

theorem outBlk_second (c : Dev nD) (t : Fin cfg0.N) (h : ¬t.val < 25) :
    outBlk m c t = k0_pay6 (iblk m c 0 t) (sup2 m c) (iblk m c 7 t) := dif_neg h

/-- The third scratch holds the second support on its first `400 · n` rows. -/
def AgreeUpTo (c : Dev nD) (n : ℕ) (d : Vec F S10000x64 .bf16) : Prop :=
  ∀ y : S10000x64.Idx, (y 0).val < 400 * n → d y = sup2 m c y

theorem agree_full (c : Dev nD) (d : Vec F S10000x64 .bf16) (h : AgreeUpTo m c 25 d) : d = sup2 m c :=
  funext fun y => h y (by have : (y 0).val < 10000 := (y 0).isLt; omega)

end Cert.KernelIdeal.Body

end
-- ==== Proof.KIPieces.lean ====
/-
  What the body's stores hold, read back. Each store found by the symbolic runs is a payload of the skeleton over
  loads of whole buffers (a load through the whole rectangle at zero offsets reads the contents) or, for the residual,
  of a slice of 400 rows. A buffer stored whole reads back its payload whatever it held; the third scratch, stored
  one slice of rows at a time, reads back the payload on those rows and what it held elsewhere.
-/
import proofs.«157266_g59210419142979_cont_9to1c4b_462_8_alg».proof.Proof.KIRunA
import proofs.«157266_g59210419142979_cont_9to1c4b_462_8_alg».proof.Proof.KIRunB
import proofs.«157266_g59210419142979_cont_9to1c4b_462_8_alg».proof.Proof.KIRunC
import proofs.«157266_g59210419142979_cont_9to1c4b_462_8_alg».proof.Proof.KIVals
import Idealize.ShloMosaic.Lib.Pipeline.Value
import Idealize.ShloMosaic.Lib.WritesUnit

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := by
  funext a; fin_cases a <;> rfl

/-- One store through the whole rectangle at zero offsets reads back as its payload, whatever was there. -/
theorem read_writes_whole {sig' : RefSig} {κ : Kind} {sp : Space} {S : Shape} {e : EltTy} {Val : EltTy → Type} [∀ e, Nonempty (Val e)]
    (v : View sig' κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon _ _ _ (fun y => ⟨_, List.mem_singleton_self _, View.mem_set_unit_zero h inb y⟩),
    View.canon_unit_zero h]

section CaseB
variable (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x64 .f32) (harg4 : arg4.IsWhole) (arg5 : Memref sig .tc .vmem S128x64 .f32) (harg5 : arg5.IsWhole) (arg6 : Memref sig .tc .vmem S128x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S400x64 .f32) (harg10 : arg10.IsWhole) (arg11 : Memref sig .tc .vmem S10000x64 .bf16) (harg11 : arg11.IsWhole) (arg12 : Memref sig .tc .vmem S10000x64 .f32) (harg12 : arg12.IsWhole) (arg13 : Memref sig .tc .vmem S10000x64 .bf16) (harg13 : arg13.IsWhole) (hc0 : ¬condP i) (hc1 : k0_cond2 i = 1#1) (hc2 : ¬k0_cond3 i = 1#1)
    (x0 : Vec F S400x10000 .f32) (x1 : Vec F S10000x128 .f32) (x2 : Vec F S128x64 .f32) (x3 : Vec F S128x64 .f32) (x4 : Vec F S128x64 .f32) (x5 : Vec F S64x64 .f32) (x6 : Vec F S1x64 .f32) (x7 : Vec F S1x64 .f32) (xs0 : Vec F S10000x64 .bf16) (xs1 : Vec F S10000x64 .f32) (xs2 : Vec F S10000x64 .bf16)

/-- Away from the first point the first pass leaves in the output's staging buffer the unrounded block of the second
    support. -/
theorem runB_out (f : arg10.view.ty.Contents (Elt F)) :
    arg10.view.read (Elt F) (arg10.view.writes (Elt F) f (runB c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1 xs2).1)
      = k0_pay4 x0 xs0 x6 x5 (View.ld xs1 (rowsAt i hc1)) := by
  unfold runB; dsimp only
  rw [read_writes_whole (S := S400x64) _ _ hz2]
  simp only [View.readAt_eq_ld, Memref.IsWhole.read_unread, View.ld_unit_zero (S := S400x10000) hz2, View.ld_unit_zero (S := S10000x64) hz2, View.ld_unit_zero (S := S10000x128) hz2, View.ld_unit_zero (S := S128x64) hz2, View.ld_unit_zero (S := S64x64) hz2, View.ld_unit_zero (S := S1x64) hz2, View.ld_unit_zero (S := S400x64) hz2]

/-- and, in the third scratch, the rounded block on the rows of its slice, -/
theorem runB_scr_mem {o : ℕ} (ho : k0_off1 i = ![o, 0]) (y : S10000x64.Idx) (x : S400x64.Idx)
    (hx0 : (y 0).val = o + (x 0).val) (hx1 : (y 1).val = (x 1).val) :
    arg13.view.read (Elt F) (arg13.view.writes (Elt F) (harg13.unread xs2) (runB c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1 xs2).2.1) y
      = k0_pay5 x0 xs0 x6 x5 (View.ld xs1 (rowsAt i hc1)) x := by
  unfold runB; dsimp only
  refine (View.read_writes_cons_rows_of_mem (d := ![10000, 64]) arg13.view _ (off := k0_off1 i) (size := ![400, 64]) _ _ [] y x ho hx0 hx1).trans ?_
  simp only [View.readAt_eq_ld, Memref.IsWhole.read_unread, View.ld_unit_zero (S := S400x10000) hz2, View.ld_unit_zero (S := S10000x64) hz2, View.ld_unit_zero (S := S10000x128) hz2, View.ld_unit_zero (S := S128x64) hz2, View.ld_unit_zero (S := S64x64) hz2, View.ld_unit_zero (S := S1x64) hz2, View.ld_unit_zero (S := S400x64) hz2]

/-- what it held on every other row. -/
theorem runB_scr_not_mem {o : ℕ} (ho : k0_off1 i = ![o, 0]) (y : S10000x64.Idx)
    (hy : (y 0).val < o ∨ o + 400 ≤ (y 0).val) :
    arg13.view.read (Elt F) (arg13.view.writes (Elt F) (harg13.unread xs2) (runB c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1 xs2).2.1) y = xs2 y := by
  unfold runB; dsimp only
  refine (View.read_writes_cons_rows_of_not_mem (d := ![10000, 64]) arg13.view _ (off := k0_off1 i) (size := ![400, 64]) _ _ [] y ho rfl hy).trans ?_
  rw [View.writes_nil, harg13.read_unread]

end CaseB

section CaseC
variable (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x64 .f32) (harg4 : arg4.IsWhole) (arg5 : Memref sig .tc .vmem S128x64 .f32) (harg5 : arg5.IsWhole) (arg6 : Memref sig .tc .vmem S128x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S400x64 .f32) (harg10 : arg10.IsWhole) (arg11 : Memref sig .tc .vmem S10000x64 .bf16) (harg11 : arg11.IsWhole) (arg12 : Memref sig .tc .vmem S10000x64 .f32) (harg12 : arg12.IsWhole) (arg13 : Memref sig .tc .vmem S10000x64 .bf16) (harg13 : arg13.IsWhole) (hc0 : ¬condP i) (hc1 : ¬k0_cond2 i = 1#1) (hc2 : k0_cond3 i = 1#1)
    (x0 : Vec F S400x10000 .f32) (x1 : Vec F S10000x128 .f32) (x2 : Vec F S128x64 .f32) (x3 : Vec F S128x64 .f32) (x4 : Vec F S128x64 .f32) (x5 : Vec F S64x64 .f32) (x6 : Vec F S1x64 .f32) (x7 : Vec F S1x64 .f32) (xs0 : Vec F S10000x64 .bf16) (xs1 : Vec F S10000x64 .f32) (xs2 : Vec F S10000x64 .bf16)

/-- The second pass leaves in the output's staging buffer the adjacency block times the third scratch's contents, plus
    the second bias. -/
theorem runC_out (f : arg10.view.ty.Contents (Elt F)) :
    arg10.view.read (Elt F) (arg10.view.writes (Elt F) f (runC c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1 xs2).1) = k0_pay6 x0 xs2 x7 := by
  unfold runC; dsimp only
  rw [read_writes_whole (S := S400x64) _ _ hz2]
  simp only [View.readAt_eq_ld, Memref.IsWhole.read_unread, View.ld_unit_zero (S := S400x10000) hz2, View.ld_unit_zero (S := S10000x64) hz2, View.ld_unit_zero (S := S10000x128) hz2, View.ld_unit_zero (S := S128x64) hz2, View.ld_unit_zero (S := S64x64) hz2, View.ld_unit_zero (S := S1x64) hz2, View.ld_unit_zero (S := S400x64) hz2]

end CaseC

section CaseA
variable (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x64 .f32) (harg4 : arg4.IsWhole) (arg5 : Memref sig .tc .vmem S128x64 .f32) (harg5 : arg5.IsWhole) (arg6 : Memref sig .tc .vmem S128x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S400x64 .f32) (harg10 : arg10.IsWhole) (arg11 : Memref sig .tc .vmem S10000x64 .bf16) (harg11 : arg11.IsWhole) (arg12 : Memref sig .tc .vmem S10000x64 .f32) (harg12 : arg12.IsWhole) (arg13 : Memref sig .tc .vmem S10000x64 .bf16) (harg13 : arg13.IsWhole) (hc0 : condP i) (hc1 : k0_cond2 i = 1#1) (hc2 : ¬k0_cond3 i = 1#1)
    (x0 : Vec F S400x10000 .f32) (x1 : Vec F S10000x128 .f32) (x2 : Vec F S128x64 .f32) (x3 : Vec F S128x64 .f32) (x4 : Vec F S128x64 .f32) (x5 : Vec F S64x64 .f32) (x6 : Vec F S1x64 .f32) (x7 : Vec F S1x64 .f32) (xs2 : Vec F S10000x64 .bf16)

/-- At the first point the prologue leaves the first support in the first scratch, -/
theorem runA_scr0 (f : arg11.view.ty.Contents (Elt F)) :
    arg11.view.read (Elt F) (arg11.view.writes (Elt F) f (runA c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs2).2.1) = k0_pay1 x1 x2 x3 := by
  unfold runA; dsimp only; sl_unfold_words
  rw [read_writes_whole (S := S10000x64) _ _ hz2]
  simp only [View.readAt_eq_ld, Memref.IsWhole.read_unread, View.ld_unit_zero (S := S400x10000) hz2, View.ld_unit_zero (S := S10000x64) hz2, View.ld_unit_zero (S := S10000x128) hz2, View.ld_unit_zero (S := S128x64) hz2, View.ld_unit_zero (S := S64x64) hz2, View.ld_unit_zero (S := S1x64) hz2, View.ld_unit_zero (S := S400x64) hz2]

/-- the residual in the second, -/
theorem runA_scr1 (f : arg12.view.ty.Contents (Elt F)) :
    arg12.view.read (Elt F) (arg12.view.writes (Elt F) f (runA c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs2).2.2.1) = k0_pay2 x1 x4 := by
  unfold runA; dsimp only; sl_unfold_words
  rw [read_writes_whole (S := S10000x64) _ _ hz2]
  simp only [View.readAt_eq_ld, Memref.IsWhole.read_unread, View.ld_unit_zero (S := S400x10000) hz2, View.ld_unit_zero (S := S10000x64) hz2, View.ld_unit_zero (S := S10000x128) hz2, View.ld_unit_zero (S := S128x64) hz2, View.ld_unit_zero (S := S64x64) hz2, View.ld_unit_zero (S := S1x64) hz2, View.ld_unit_zero (S := S400x64) hz2]

/-- and the first pass, reading both back, leaves the unrounded first block of the second support in the output's
    staging buffer, -/
theorem runA_out (f : arg10.view.ty.Contents (Elt F)) :
    arg10.view.read (Elt F) (arg10.view.writes (Elt F) f (runA c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs2).1)
      = k0_pay4 x0 (k0_pay1 x1 x2 x3) x6 x5 (View.ld (k0_pay2 x1 x4) (rowsAt i hc1)) := by
  unfold runA; dsimp only
  rw [read_writes_whole (S := S400x64) _ _ hz2]
  sl_unfold_words
  simp only [View.readAt_eq_ld, Memref.IsWhole.read_unread, View.ld_unit_zero (S := S400x10000) hz2, View.ld_unit_zero (S := S10000x64) hz2, View.ld_unit_zero (S := S10000x128) hz2, View.ld_unit_zero (S := S128x64) hz2, View.ld_unit_zero (S := S64x64) hz2, View.ld_unit_zero (S := S1x64) hz2, View.ld_unit_zero (S := S400x64) hz2, read_writes_whole (S := S10000x64) _ _ hz2, View.readCov_unit_zero (S := S10000x64) _ hz2]
  rfl

/-- the rounded block on the first rows of the third scratch, -/
theorem runA_scr_mem {o : ℕ} (ho : k0_off1 i = ![o, 0]) (y : S10000x64.Idx) (x : S400x64.Idx)
    (hx0 : (y 0).val = o + (x 0).val) (hx1 : (y 1).val = (x 1).val) :
    arg13.view.read (Elt F) (arg13.view.writes (Elt F) (harg13.unread xs2) (runA c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs2).2.2.2.1) y
      = k0_pay5 x0 (k0_pay1 x1 x2 x3) x6 x5 (View.ld (k0_pay2 x1 x4) (rowsAt i hc1)) x := by
  unfold runA; dsimp only
  refine (View.read_writes_cons_rows_of_mem (d := ![10000, 64]) arg13.view _ (off := k0_off1 i) (size := ![400, 64]) _ _ [] y x ho hx0 hx1).trans ?_
  sl_unfold_words
  simp only [View.readAt_eq_ld, Memref.IsWhole.read_unread, View.ld_unit_zero (S := S400x10000) hz2, View.ld_unit_zero (S := S10000x64) hz2, View.ld_unit_zero (S := S10000x128) hz2, View.ld_unit_zero (S := S128x64) hz2, View.ld_unit_zero (S := S64x64) hz2, View.ld_unit_zero (S := S1x64) hz2, View.ld_unit_zero (S := S400x64) hz2, read_writes_whole (S := S10000x64) _ _ hz2, View.readCov_unit_zero (S := S10000x64) _ hz2]
  rfl

/-- and what the third scratch held on every other row. -/
theorem runA_scr_not_mem {o : ℕ} (ho : k0_off1 i = ![o, 0]) (y : S10000x64.Idx)
    (hy : (y 0).val < o ∨ o + 400 ≤ (y 0).val) :
    arg13.view.read (Elt F) (arg13.view.writes (Elt F) (harg13.unread xs2) (runA c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs2).2.2.2.1) y = xs2 y := by
  unfold runA; dsimp only
  refine (View.read_writes_cons_rows_of_not_mem (d := ![10000, 64]) arg13.view _ (off := k0_off1 i) (size := ![400, 64]) _ _ [] y ho rfl hy).trans ?_
  rw [View.writes_nil, harg13.read_unread]

end CaseA

end Cert.KernelIdeal.Body

end
-- ==== Proof.KIFrame.lean ====
/-
  The frame of the one pallas_call, with every buffer's contents named. Between points the region's invariant holds
  the first scratch at the first support, the second at the residual, and the third at contents that agree with the
  second support on the rows the first pass has filled so far (400 more after each of its points; all 10000 from the
  end of the first pass on). At each point the body is one of three runs — the first point, the rest of the first
  pass, the second pass — and leaves the output's staging buffer at the block named for the point; the input windows'
  buffers hold their blocks throughout.
-/
import proofs.«157266_g59210419142979_cont_9to1c4b_462_8_alg».proof.Proof.KIPieces

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The invariant between points -/

/-- Before the first point: what the launch hands over (every scratch at anything). After point `n`: the first two
    scratch buffers at the first support and the residual, the third agreeing with the second support on its first
    `400 · (n + 1)` rows, the generator register at some state. -/
def Phi (c : Dev nD) : ℕ → sProp 𝕄
  | 0 => Pipeline.ΦA spec0 c
  | n + 1 => iprop(iprop(owns (c : Thread nD τ) scr0 fullShare (sup1 m c) ∗ owns (c : Thread nD τ) scr1 fullShare (res m c) ∗ (∃ d, ⌜AgreeUpTo m c (n + 1) d⌝ ∗ owns (c : Thread nD τ) scr2 fullShare d)) ∗ (∃ r, prngReg c r))

theorem Phi_succ (c : Dev nD) (n : ℕ) :
    Phi m c (n + 1) = iprop(iprop(owns (c : Thread nD τ) scr0 fullShare (sup1 m c) ∗ owns (c : Thread nD τ) scr1 fullShare (res m c) ∗ (∃ d, ⌜AgreeUpTo m c (n + 1) d⌝ ∗ owns (c : Thread nD τ) scr2 fullShare d)) ∗ (∃ r, prngReg c r)) := rfl

theorem Phi_pos (c : Dev nD) (n : ℕ) (hn : n ≠ 0) :
    Phi m c n = iprop(iprop(owns (c : Thread nD τ) scr0 fullShare (sup1 m c) ∗ owns (c : Thread nD τ) scr1 fullShare (res m c) ∗ (∃ d, ⌜AgreeUpTo m c n d⌝ ∗ owns (c : Thread nD τ) scr2 fullShare d)) ∗ (∃ r, prngReg c r)) := by
  cases n with
  | zero => exact absurd rfl hn
  | succ n => rfl

/-! ## The proof data -/

/-- The arrays as the region finds them; after the body at point `t` each input's buffer at its block and the
    output's at the block named for the point; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outBlk m c t
  Φ t := Phi m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = outBlk m c t := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (sm0 t) fullShare ((dats m 0 c).before 0 t d))
    ∗ (∃ d, owns (c : Thread nD τ) (sm1 t) fullShare ((dats m 0 c).before 1 t d))
    ∗ (∃ d, owns (c : Thread nD τ) (sm2 t) fullShare ((dats m 0 c).before 2 t d))
    ∗ (∃ d, owns (c : Thread nD τ) (sm3 t) fullShare ((dats m 0 c).before 3 t d))
    ∗ (∃ d, owns (c : Thread nD τ) (sm4 t) fullShare ((dats m 0 c).before 4 t d))
    ∗ (∃ d, owns (c : Thread nD τ) (sm5 t) fullShare ((dats m 0 c).before 5 t d))
    ∗ (∃ d, owns (c : Thread nD τ) (sm6 t) fullShare ((dats m 0 c).before 6 t d))
    ∗ (∃ d, owns (c : Thread nD τ) (sm7 t) fullShare ((dats m 0 c).before 7 t d))
    ∗ (∃ d, owns (c : Thread nD τ) (sm8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

/-- Filling the rows of point `t` extends the agreement by 400 rows. -/
theorem agree_step (c : Dev nD) (t : Fin cfg0.N) (h : t.val < 25) (d d' : Vec F S10000x64 .bf16)
    (hd : AgreeUpTo m c t.val d)
    (hin : ∀ (y : S10000x64.Idx) (x : S400x64.Idx), (y 0).val = 400 * t.val + (x 0).val → (y 1).val = (x 1).val → d' y = blk2b m c t h x)
    (hout : ∀ y : S10000x64.Idx, ((y 0).val < 400 * t.val ∨ 400 * t.val + 400 ≤ (y 0).val) → d' y = d y) :
    AgreeUpTo m c (t.val + 1) d' := by
  intro y hy
  by_cases hlt : (y 0).val < 400 * t.val
  · rw [hout y (Or.inl hlt)]; exact hd y hlt
  · have hq : (y 0).val / 400 = t.val := by omega
    have hpt : ptOf y = t := Fin.ext hq
    rw [hin y (ValueIdx.ix2 ⟨(y 0).val % 400, Nat.mod_lt _ (by decide)⟩ (y 1)) (by show (y 0).val = 400 * t.val + (y 0).val % 400; omega) rfl]
    unfold sup2
    have key : ∀ (s : Fin cfg0.N) (hs : s.val < 25), s = t → blk2b m c s hs = blk2b m c t h := by
      intro s hs e; subst e; rfl
    rw [key (ptOf y) (row_div_lt y) hpt]

/-- Once the first pass is over the agreement is total, whatever the row bound. -/
theorem agree_mono (c : Dev nD) (n n' : ℕ) (hn : 25 ≤ n) (d : Vec F S10000x64 .bf16) (hd : AgreeUpTo m c n d) :
    AgreeUpTo m c n' d := fun y _ => hd y (by have : (y 0).val < 10000 := (y 0).isLt; omega)

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).owesAt () t.succ = (dats m 0 c).owesAt () t.castSucc from rfl]
  rw [show (dats m 0 c).Φ t.succ = Phi m c (t.val + 1) from rfl, Phi_succ]
  rw [show (dats m 0 c).Φ t.castSucc = Phi m c t.val from by dsimp only [dats]; simp only [Fin.coe_castSucc]]
  rw [show (dats m 0 c).leavesExact 0 t = owns (c : Thread nD τ) (sm0 t) fullShare (iblk m c 0 t) from by
    unfold Dat.leavesExact; rw [live0 t]; dsimp only [dats]]
  rw [show (dats m 0 c).leavesExact 1 t = owns (c : Thread nD τ) (sm1 t) fullShare (iblk m c 1 t) from by
    unfold Dat.leavesExact; rw [live1 t]; dsimp only [dats]]
  rw [show (dats m 0 c).leavesExact 2 t = owns (c : Thread nD τ) (sm2 t) fullShare (iblk m c 2 t) from by
    unfold Dat.leavesExact; rw [live2 t]; dsimp only [dats]]
  rw [show (dats m 0 c).leavesExact 3 t = owns (c : Thread nD τ) (sm3 t) fullShare (iblk m c 3 t) from by
    unfold Dat.leavesExact; rw [live3 t]; dsimp only [dats]]
  rw [show (dats m 0 c).leavesExact 4 t = owns (c : Thread nD τ) (sm4 t) fullShare (iblk m c 4 t) from by
    unfold Dat.leavesExact; rw [live4 t]; dsimp only [dats]]
  rw [show (dats m 0 c).leavesExact 5 t = owns (c : Thread nD τ) (sm5 t) fullShare (iblk m c 5 t) from by
    unfold Dat.leavesExact; rw [live5 t]; dsimp only [dats]]
  rw [show (dats m 0 c).leavesExact 6 t = owns (c : Thread nD τ) (sm6 t) fullShare (iblk m c 6 t) from by
    unfold Dat.leavesExact; rw [live6 t]; dsimp only [dats]]
  rw [show (dats m 0 c).leavesExact 7 t = owns (c : Thread nD τ) (sm7 t) fullShare (iblk m c 7 t) from by
    unfold Dat.leavesExact; rw [live7 t]; dsimp only [dats]]
  rw [show (dats m 0 c).leavesExact 8 t = owns (c : Thread nD τ) (sm8 t) fullShare (outBlk m c t) from by
    unfold Dat.leavesExact; rw [live8 t]; dsimp only [dats]]
  have hN : t.val < 50 := lt_of_lt_of_eq t.isLt (show cfg0.N = 50 from N_0)
  by_cases hz : t.val = 0
  · -- the first point: the prologue, then the first pass
    have h25 : t.val < 25 := by omega
    have ht0 : t = t0 := Fin.ext hz
    rw [show Phi m c t.val = Pipeline.ΦA spec0 c from by rw [hz]; rfl, PhiA_eq]
    iintro ⟨⟨⟨⟨%e0, HS0⟩, ⟨%e1, HS1⟩, ⟨%e2, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runA c (grid0.coords t) _ _ _ _ _ _ _ _ _ _ _ _ _ _ _ _ _ _ _ _ _ _ _ _ ((condP_iff t).mpr hz) ((cond2_iff t).mpr h25) (fun h => absurd ((cond3_iff t).mp h) (by omega)) (iblk m c 0 t) (iblk m c 1 t) (iblk m c 2 t) (iblk m c 3 t) (iblk m c 4 t) (iblk m c 5 t) (iblk m c 6 t) (iblk m c 7 t) e2).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexists _; iexact HS0
    isplitl [HS1]; · iexists _; iexact HS1
    isplitl [HS2]; · iexact HS2
    iintro ⟨H0, H1, H2, H3, H4, H5, H6, H7, ⟨%f8, H8⟩, ⟨%g0, HS0⟩, ⟨%g1, HS1⟩, HS2⟩
    isplitl [HS0 HS1 HS2 Hg]
    · isplitl [HS0 HS1 HS2]
      · isplitl [HS0]
        · unfold owns; iexists _; isplitr
          swap; · iexact HS0
          ipureintro; rw [runA_scr0]; subst ht0; rfl
        isplitl [HS1]
        · unfold owns; iexists _; isplitr
          swap; · iexact HS1
          ipureintro; rw [runA_scr1]; subst ht0; rfl
        iexists _; isplitr
        swap
        · unfold owns; iexists _; isplitr
          swap; · iexact HS2
          ipureintro; rfl
        ipureintro
        have hoff := off1_eq t
        rw [Nat.mod_eq_of_lt h25] at hoff
        refine agree_step m c t h25 e2 _ (fun y hy => absurd hy (by omega)) ?_ ?_
        · intro y x hx0 hx1
          rw [runA_scr_mem (ho := hoff) (y := y) (x := x) (hx0 := hx0) (hx1 := hx1)]
          subst ht0; rfl
        · intro y hy
          exact runA_scr_not_mem (ho := hoff) (y := y) (hy := hy) ..
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; rw [runA_out, outBlk_first m c t h25]; subst ht0; rfl
  · rw [Phi_pos m c t.val hz]
    by_cases h25 : t.val < 25
    · -- the rest of the first pass
      iintro ⟨⟨⟨HS0, HS1, ⟨%e2, %he2, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runB c (grid0.coords t) _ _ _ _ _ _ _ _ _ _ _ _ _ _ _ _ _ _ _ _ _ _ _ _ (fun h => hz ((condP_iff t).mp h)) ((cond2_iff t).mpr h25) (fun h => absurd ((cond3_iff t).mp h) (by omega)) (iblk m c 0 t) (iblk m c 1 t) (iblk m c 2 t) (iblk m c 3 t) (iblk m c 4 t) (iblk m c 5 t) (iblk m c 6 t) (iblk m c 7 t) (sup1 m c) (res m c) e2).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      isplitl [HS2]; · iexact HS2
      iintro ⟨H0, H1, H2, H3, H4, H5, H6, H7, ⟨%f8, H8⟩, HS0, HS1, HS2⟩
      isplitl [HS0 HS1 HS2 Hg]
      · isplitl [HS0 HS1 HS2]
        · isplitl [HS0]; · iexact HS0
          isplitl [HS1]; · iexact HS1
          iexists _; isplitr
          swap
          · unfold owns; iexists _; isplitr
            swap; · iexact HS2
            ipureintro; rfl
          ipureintro
          have hoff := off1_eq t
          rw [Nat.mod_eq_of_lt h25] at hoff
          refine agree_step m c t h25 e2 _ he2 ?_ ?_
          · intro y x hx0 hx1
            rw [runB_scr_mem (ho := hoff) (y := y) (x := x) (hx0 := hx0) (hx1 := hx1)]
            rfl
          · intro y hy
            exact runB_scr_not_mem (ho := hoff) (y := y) (hy := hy) ..
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; rw [runB_out, outBlk_first m c t h25]; rfl
    · -- the second pass
      iintro ⟨⟨⟨HS0, HS1, ⟨%e2, %he2, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      have hfull : e2 = sup2 m c := agree_full m c e2 (agree_mono m c t.val 25 (by omega) e2 he2)
      iapply ((runC c (grid0.coords t) _ _ _ _ _ _ _ _ _ _ _ _ _ _ _ _ _ _ _ _ _ _ _ _ (fun h => hz ((condP_iff t).mp h)) (fun h => h25 ((cond2_iff t).mp h)) ((cond3_iff t).mpr (by omega)) (iblk m c 0 t) (iblk m c 1 t) (iblk m c 2 t) (iblk m c 3 t) (iblk m c 4 t) (iblk m c 5 t) (iblk m c 6 t) (iblk m c 7 t) (sup1 m c) (res m c) e2).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      isplitl [HS2]; · iexact HS2
      iintro ⟨H0, H1, H2, H3, H4, H5, H6, H7, ⟨%f8, H8⟩, HS0, HS1, HS2⟩
      isplitl [HS0 HS1 HS2 Hg]
      · isplitl [HS0 HS1 HS2]
        · isplitl [HS0]; · iexact HS0
          isplitl [HS1]; · iexact HS1
          iexists _; isplitr
          swap; · iexact HS2
          ipureintro; exact agree_mono m c t.val (t.val + 1) (by omega) e2 he2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; rw [runC_out, outBlk_second m c t h25, hfull]

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Pipeline.ΦA spec0 c from rfl]
  try exact Idealize.SL.BI.Entails.refl _

/-- After the last point the invariant gives the launch's back: the scratch contents are forgotten. -/
theorem hout (c : Dev nD) : (dats m 0 c).Φ (Fin.last cfg0.N) ⊢ Pipeline.ΦA spec0 c := by
  rw [show (dats m 0 c).Φ (Fin.last cfg0.N) = Phi m c (Fin.last cfg0.N).val from rfl,
    Phi_pos m c _ (by rw [Fin.val_last]; have : cfg0.N = 50 := N_0; omega), PhiA_eq]
  iintro ⟨⟨HS0, HS1, ⟨%d, -, HS2⟩⟩, Hg⟩
  isplitl [HS0 HS1 HS2]
  · isplitl [HS0]
    · iexists _; iexact HS0
    isplitl [HS1]
    · iexists _; iexact HS1
    iexists _; iexact HS2
  iexact Hg

/-! ## The run and the frame -/

set_option backward.isDefEq.respectTransparency.types false in
/-- Every weakly fair execution of @main terminates, every array of the pipeline ends at what the write-backs of the
    proof data leave, every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim's post, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.KernelIdeal.Body

end
-- ==== Proof.KIBlocks.lean ====
/-
  Each window's block at a grid point, read off the argument arrays index by index.
  The grid is 2 × 25 walked row-major; point t is (pass, block) = (t / 25, t % 25). A block's element x sits in its
  array at block index × block size + x on every axis, so:
    • the adjacency's block (400 × 10000, block index (t % 25, 0)) is rows 400 · (t % 25) … + 399 of the adjacency;
    • the node features, the three first-layer weights and the second-layer weight are whole-array windows
      (block index (0, 0) at every point): their block IS the array;
    • the two biases reach the body as host reshapes [64] → [1, 64]; the reshape read at (0, h) is the bias at h;
    • the slice of a 10000-row scratch that the first pass reads at point t < 25 is rows 400 · t … + 399;
    • the output's block written back at point t ≥ 25 (block index (t − 25, 0), 400 × 64) is rows
      400 · (t − 25) … + 399 of the output, and these 25 blocks cover the output.
  The block indices are decided once over the 50 points of the grid; the rest is coordinate arithmetic.
-/
import proofs.«157266_g59210419142979_cont_9to1c4b_462_8_alg».proof.Proof.KIVals
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

variable (m : (ℓ : Loc nD τ sig) → Buf (Elt F) ℓ)

/-! ## The block indices of the whole-array windows, decided over the grid -/

theorem blkIndex1_eq : ∀ t : Fin cfg0.N, (cfg0.win 1).index t = ![0, 0] :=
  (by decide +kernel : ∀ t : Fin grid0.N, win0_1.index t = ![0, 0])
theorem blkIndex2_eq : ∀ t : Fin cfg0.N, (cfg0.win 2).index t = ![0, 0] :=
  (by decide +kernel : ∀ t : Fin grid0.N, win0_2.index t = ![0, 0])
theorem blkIndex3_eq : ∀ t : Fin cfg0.N, (cfg0.win 3).index t = ![0, 0] :=
  (by decide +kernel : ∀ t : Fin grid0.N, win0_3.index t = ![0, 0])
theorem blkIndex4_eq : ∀ t : Fin cfg0.N, (cfg0.win 4).index t = ![0, 0] :=
  (by decide +kernel : ∀ t : Fin grid0.N, win0_4.index t = ![0, 0])
theorem blkIndex5_eq : ∀ t : Fin cfg0.N, (cfg0.win 5).index t = ![0, 0] :=
  (by decide +kernel : ∀ t : Fin grid0.N, win0_5.index t = ![0, 0])
theorem blkIndex6_eq : ∀ t : Fin cfg0.N, (cfg0.win 6).index t = ![0, 0] :=
  (by decide +kernel : ∀ t : Fin grid0.N, win0_6.index t = ![0, 0])
theorem blkIndex7_eq : ∀ t : Fin cfg0.N, (cfg0.win 7).index t = ![0, 0] :=
  (by decide +kernel : ∀ t : Fin grid0.N, win0_7.index t = ![0, 0])

/-! ## The adjacency's block: 400 rows -/

/-- The adjacency window's block at point t is rows 400 · (t % 25) … 400 · (t % 25) + 399 of the adjacency. -/
theorem iblk0_apply (c : Dev nD) (t : Fin cfg0.N) (r : Fin 400) (n : Fin 10000) :
    (iblk m c 0 t : S400x10000.Idx → Elt F .f32) (ix2 r n)
      = (m ((c : Thread nD τ).loc main_arg0) : S10000x10000.Idx → Elt F .f32)
          (ix2 (⟨400 * (t.val % 25) + r.val, by have := r.isLt; omega⟩ : Fin 10000) n) := by
  have hi := index0_eq t
  unfold iblk
  rw [View.read_apply]
  show V m c main_arg0 _ = _
  rw [V_main_arg0]
  congr 1
  funext a
  apply Fin.ext
  match a with
  | ⟨0, _⟩ => show win0_0.index t 0 * 400 + 1 * r.val = 400 * (t.val % 25) + r.val; rw [show win0_0.index t 0 = t.val % 25 from congrFun hi 0]; omega
  | ⟨1, _⟩ => show win0_0.index t 1 * 10000 + 1 * n.val = n.val; rw [show win0_0.index t 1 = 0 from congrFun hi 1]; omega

/-! ## The whole-array windows -/

/-- Window 1 is the whole array: its one block, at block index (0, 0), is the array as launched. -/
theorem iblk1_eq (c : Dev nD) (t : Fin cfg0.N) :
    (iblk m c 1 t : S10000x128.Idx → Elt F .f32) = m ((c : Thread nD τ).loc main_arg1) := by
  have hi := blkIndex1_eq t
  funext x
  unfold iblk
  rw [View.read_apply]
  show V m c main_arg1 _ = _
  rw [V_main_arg1]
  congr 1
  funext a
  apply Fin.ext
  match a with
  | ⟨0, _⟩ => show win0_1.index t 0 * 10000 + 1 * (x 0).val = (x 0).val; rw [show win0_1.index t 0 = 0 from congrFun hi 0]; omega
  | ⟨1, _⟩ => show win0_1.index t 1 * 128 + 1 * (x 1).val = (x 1).val; rw [show win0_1.index t 1 = 0 from congrFun hi 1]; omega

/-- Window 2 is the whole array: its one block, at block index (0, 0), is the array as launched. -/
theorem iblk2_eq (c : Dev nD) (t : Fin cfg0.N) :
    (iblk m c 2 t : S128x64.Idx → Elt F .f32) = m ((c : Thread nD τ).loc main_arg2) := by
  have hi := blkIndex2_eq t
  funext x
  unfold iblk
  rw [View.read_apply]
  show V m c main_arg2 _ = _
  rw [V_main_arg2]
  congr 1
  funext a
  apply Fin.ext
  match a with
  | ⟨0, _⟩ => show win0_2.index t 0 * 128 + 1 * (x 0).val = (x 0).val; rw [show win0_2.index t 0 = 0 from congrFun hi 0]; omega
  | ⟨1, _⟩ => show win0_2.index t 1 * 64 + 1 * (x 1).val = (x 1).val; rw [show win0_2.index t 1 = 0 from congrFun hi 1]; omega

/-- Window 3 is the whole array: its one block, at block index (0, 0), is the array as launched. -/
theorem iblk3_eq (c : Dev nD) (t : Fin cfg0.N) :
    (iblk m c 3 t : S128x64.Idx → Elt F .f32) = m ((c : Thread nD τ).loc main_arg3) := by
  have hi := blkIndex3_eq t
  funext x
  unfold iblk
  rw [View.read_apply]
  show V m c main_arg3 _ = _
  rw [V_main_arg3]
  congr 1
  funext a
  apply Fin.ext
  match a with
  | ⟨0, _⟩ => show win0_3.index t 0 * 128 + 1 * (x 0).val = (x 0).val; rw [show win0_3.index t 0 = 0 from congrFun hi 0]; omega
  | ⟨1, _⟩ => show win0_3.index t 1 * 64 + 1 * (x 1).val = (x 1).val; rw [show win0_3.index t 1 = 0 from congrFun hi 1]; omega

/-- Window 4 is the whole array: its one block, at block index (0, 0), is the array as launched. -/
theorem iblk4_eq (c : Dev nD) (t : Fin cfg0.N) :
    (iblk m c 4 t : S128x64.Idx → Elt F .f32) = m ((c : Thread nD τ).loc main_arg6) := by
  have hi := blkIndex4_eq t
  funext x
  unfold iblk
  rw [View.read_apply]
  show V m c main_arg6 _ = _
  rw [V_main_arg6]
  congr 1
  funext a
  apply Fin.ext
  match a with
  | ⟨0, _⟩ => show win0_4.index t 0 * 128 + 1 * (x 0).val = (x 0).val; rw [show win0_4.index t 0 = 0 from congrFun hi 0]; omega
  | ⟨1, _⟩ => show win0_4.index t 1 * 64 + 1 * (x 1).val = (x 1).val; rw [show win0_4.index t 1 = 0 from congrFun hi 1]; omega

/-- Window 5 is the whole array: its one block, at block index (0, 0), is the array as launched. -/
theorem iblk5_eq (c : Dev nD) (t : Fin cfg0.N) :
    (iblk m c 5 t : S64x64.Idx → Elt F .f32) = m ((c : Thread nD τ).loc main_arg5) := by
  have hi := blkIndex5_eq t
  funext x
  unfold iblk
  rw [View.read_apply]
  show V m c main_arg5 _ = _
  rw [V_main_arg5]
  congr 1
  funext a
  apply Fin.ext
  match a with
  | ⟨0, _⟩ => show win0_5.index t 0 * 64 + 1 * (x 0).val = (x 0).val; rw [show win0_5.index t 0 = 0 from congrFun hi 0]; omega
  | ⟨1, _⟩ => show win0_5.index t 1 * 64 + 1 * (x 1).val = (x 1).val; rw [show win0_5.index t 1 = 0 from congrFun hi 1]; omega

/-! ## The biases: host reshapes read through their windows -/

/-- The first bias as the region finds it: the host's reshape [64] → [1, 64] of the bias as launched. -/
theorem V_main_v0 (c : Dev nD) :
    (V m c main_v0 : S1x64.Idx → Elt F .f32)
      = shapeCast S1x64 (m ((c : Thread nD τ).loc main_arg4) : S64.Idx → Elt F .f32) shapeCasts_S64_S1x64 := by
  dsimp only [V, hostOps0]
  after_results
  rfl

/-- Window 6's block, the reshaped first bias, read at (0, h) is the bias at h. -/
theorem iblk6_apply (c : Dev nD) (t : Fin cfg0.N) (h : Fin 64) :
    (iblk m c 6 t : S1x64.Idx → Elt F .f32) (ix2 (0 : Fin 1) h)
      = (m ((c : Thread nD τ).loc main_arg4) : S64.Idx → Elt F .f32) (ix1 h) := by
  have hi := blkIndex6_eq t
  have e : (((cfg0.win 6).blk t).view.emb (ix2 (0 : Fin 1) h) : S1x64.Idx) = ix2 (0 : Fin 1) h := by
    funext a
    apply Fin.ext
    match a with
    | ⟨0, _⟩ => show win0_6.index t 0 * 1 + 1 * 0 = 0; rw [show win0_6.index t 0 = 0 from congrFun hi 0]
    | ⟨1, _⟩ => show win0_6.index t 1 * 64 + 1 * h.val = h.val; rw [show win0_6.index t 1 = 0 from congrFun hi 1]; omega
  unfold iblk
  rw [View.read_apply]
  show (V m c main_v0 : S1x64.Idx → Elt F .f32) _ = _
  rw [V_main_v0, e]
  exact shapeCast_a_1a_apply _ _ 0 h

/-- The second bias as the region finds it: the host's reshape [64] → [1, 64] of the bias as launched. -/
theorem V_main_v1 (c : Dev nD) :
    (V m c main_v1 : S1x64.Idx → Elt F .f32)
      = shapeCast S1x64 (m ((c : Thread nD τ).loc main_arg7) : S64.Idx → Elt F .f32) shapeCasts_S64_S1x64 := by
  dsimp only [V, hostOps0]
  after_results
  rfl

/-- Window 7's block, the reshaped second bias, read at (0, h) is the bias at h. -/
theorem iblk7_apply (c : Dev nD) (t : Fin cfg0.N) (h : Fin 64) :
    (iblk m c 7 t : S1x64.Idx → Elt F .f32) (ix2 (0 : Fin 1) h)
      = (m ((c : Thread nD τ).loc main_arg7) : S64.Idx → Elt F .f32) (ix1 h) := by
  have hi := blkIndex7_eq t
  have e : (((cfg0.win 7).blk t).view.emb (ix2 (0 : Fin 1) h) : S1x64.Idx) = ix2 (0 : Fin 1) h := by
    funext a
    apply Fin.ext
    match a with
    | ⟨0, _⟩ => show win0_7.index t 0 * 1 + 1 * 0 = 0; rw [show win0_7.index t 0 = 0 from congrFun hi 0]
    | ⟨1, _⟩ => show win0_7.index t 1 * 64 + 1 * h.val = h.val; rw [show win0_7.index t 1 = 0 from congrFun hi 1]; omega
  unfold iblk
  rw [View.read_apply]
  show (V m c main_v1 : S1x64.Idx → Elt F .f32) _ = _
  rw [V_main_v1, e]
  exact shapeCast_a_1a_apply _ _ 0 h

/-! ## The rows of a scratch the first pass reads at a point -/

/-- At a point t of the first pass the slice of a 10000-row array read at the body's offsets is rows
    400 · t … 400 · t + 399. -/
theorem ld_rows_apply (X : Vec F S10000x64 .f32) (t : Fin cfg0.N) (h : t.val < 25) (r : Fin 400) (j : Fin 64) :
    View.ld X (rowsAt (grid0.coords t) ((cond2_iff t).mpr h)) (ix2 r j)
      = X (ix2 (⟨400 * t.val + r.val, by have := r.isLt; omega⟩ : Fin 10000) j) := by
  have ho := off1_eq t
  show X _ = X _
  congr 1
  funext a
  apply Fin.ext
  match a with
  | ⟨0, _⟩ =>
    show k0_off1 (grid0.coords t) 0 + 1 * r.val = 400 * t.val + r.val
    rw [show k0_off1 (grid0.coords t) 0 = 400 * (t.val % 25) from congrFun ho 0, Nat.mod_eq_of_lt h]; omega
  | ⟨1, _⟩ =>
    show k0_off1 (grid0.coords t) 1 + 1 * j.val = j.val
    rw [show k0_off1 (grid0.coords t) 1 = 0 from congrFun ho 1]; omega

/-! ## The output's blocks: 400 rows each, written back in the second pass -/

/-- A point of the grid is below 50. -/
theorem pt_lt (t : Fin cfg0.N) : t.val < 50 := Nat.lt_of_lt_of_eq t.isLt N_0

/-- A row of the output lies in the block written back at point t of the second pass iff it is one of rows
    400 · (t − 25) … 400 · (t − 25) + 399. -/
theorem blk8_mem (t : Fin cfg0.N) (ht : 25 ≤ t.val) (y : S10000x64.Idx) :
    y ∈ ((cfg0.win 8).blk t).view.set ↔ 400 * (t.val - 25) ≤ (y 0).val ∧ (y 0).val < 400 * (t.val - 25) + 400 := by
  have hi := index8_eq t ht
  have e0 : win0_8.index t 0 = t.val - 25 := congrFun hi 0
  have e1 : win0_8.index t 1 = 0 := congrFun hi 1
  show y ∈ ((View.whole main_v2).slice (win0_8.rect t)).set ↔ _
  rw [View.set_slice_whole, Rect.mem_set_unit]
  constructor
  · intro hy
    have h0 : win0_8.index t 0 * 400 ≤ (y 0).val ∧ (y 0).val < win0_8.index t 0 * 400 + 400 := hy 0
    rw [e0] at h0
    omega
  · intro hy a
    match a with
    | ⟨0, _⟩ =>
      show win0_8.index t 0 * 400 ≤ (y 0).val ∧ (y 0).val < win0_8.index t 0 * 400 + 400
      rw [e0]; omega
    | ⟨1, _⟩ =>
      show win0_8.index t 1 * 64 ≤ (y 1).val ∧ (y 1).val < win0_8.index t 1 * 64 + 64
      have : (y 1).val < 64 := (y 1).isLt
      rw [e1]; omega

/-- The block written back at point t of the second pass sits at rows 400 · (t − 25) … of the output: its
    element (r, j) is the output's element (400 · (t − 25) + r, j). -/
theorem blk8_emb (t : Fin cfg0.N) (ht : 25 ≤ t.val) (r : Fin 400) (j : Fin 64) :
    (((cfg0.win 8).blk t).view.emb (ix2 r j) : S10000x64.Idx)
      = ix2 (⟨400 * (t.val - 25) + r.val, by have := r.isLt; have := pt_lt t; omega⟩ : Fin 10000) j := by
  have hi := index8_eq t ht
  funext a
  apply Fin.ext
  match a with
  | ⟨0, _⟩ =>
    show win0_8.index t 0 * 400 + 1 * r.val = 400 * (t.val - 25) + r.val
    rw [show win0_8.index t 0 = t.val - 25 from congrFun hi 0]; omega
  | ⟨1, _⟩ =>
    show win0_8.index t 1 * 64 + 1 * j.val = j.val
    rw [show win0_8.index t 1 = 0 from congrFun hi 1]; omega

/-- A whole-array function read through the block of point t of the second pass, at (r, j), is the function at
    row 400 · (t − 25) + r, column j. -/
theorem blk8_read_apply (G : S10000x64.Idx → Elt F .f32) (t : Fin cfg0.N) (ht : 25 ≤ t.val) (r : Fin 400) (j : Fin 64) :
    (((cfg0.win 8).blk t).view.read (Elt F) G : S400x64.Idx → Elt F .f32) (ix2 r j)
      = G (ix2 (⟨400 * (t.val - 25) + r.val, by have := r.isLt; have := pt_lt t; omega⟩ : Fin 10000) j) := by
  rw [View.read_apply]
  show G _ = G _
  rw [blk8_emb t ht r j]

/-- Every row of the output lies in the block of some point of the second pass: row y in that of point
    25 + y / 400. -/
theorem blk8_cover (y : S10000x64.Idx) :
    ∃ t : Fin cfg0.N, (cfg0.win 8).flush t = true ∧ y ∈ ((cfg0.win 8).blk t).view.set := by
  have hy : (y 0).val < 10000 := (y 0).isLt
  have hN : cfg0.N = 50 := N_0
  refine ⟨⟨25 + (y 0).val / 400, by rw [hN]; omega⟩, (flush8_iff _).mpr (by show 25 ≤ 25 + (y 0).val / 400; omega), ?_⟩
  rw [blk8_mem _ (by show 25 ≤ 25 + (y 0).val / 400; omega)]
  show 400 * (25 + (y 0).val / 400 - 25) ≤ (y 0).val ∧ (y 0).val < 400 * (25 + (y 0).val / 400 - 25) + 400
  omega

end Cert.KernelIdeal.Body

end
-- ==== Proof.Spec.lean ====
/-
  The two-layer graph convolution as ONE function of the argument arrays, index by index, on the extended reals.
  With `adj` the dense adjacency (10000 × 10000), `x` the node features (10000 × 128), weights `W1, Wh1, Wh2` (128 × 64),
  `W2` (64 × 64) and biases `b1, b2` (64):
    support1 = x · (W1 + Wh1)                       (the first layer's support, the two weights added first)
    resid    = x · Wh2                              (the initial-feature residual of the second layer)
    hidden   = max (adj · support1 + b1) 0          (the first layer, rectified)
    support2 = hidden · W2 + resid
    out      = adj · support2 + b2
  every product a finite sum over the contracted index. Float literals stay as their words (`Ideal.ofBits`): the same
  word stands on both sides of every comparison and is never evaluated.
-/
import Idealize.ShloMosaic.PureOps.Ideal
import Idealize.ShloMosaic.Lib.ValueIdx

noncomputable section

namespace Cert.Gcn

open Idealize.ShloMosaic Idealize.ShloMosaic.ValueIdx

variable (adj : FVec Ideal ⟨2, ![10000, 10000]⟩ .f32) (x : FVec Ideal ⟨2, ![10000, 128]⟩ .f32)
  (W1 Wh1 : FVec Ideal ⟨2, ![128, 64]⟩ .f32) (b1 : FVec Ideal ⟨1, ![64]⟩ .f32) (W2 : FVec Ideal ⟨2, ![64, 64]⟩ .f32)
  (Wh2 : FVec Ideal ⟨2, ![128, 64]⟩ .f32) (b2 : FVec Ideal ⟨1, ![64]⟩ .f32)

/-- The first layer's support: row `i 0` of `x` against column `i 1` of `W1 + Wh1`. -/
def support1 : FVec Ideal ⟨2, ![10000, 64]⟩ .f32 := fun i =>
  ∑ k : Fin 128, x (ix2 (i 0) k) * (W1 (ix2 k (i 1)) + Wh1 (ix2 k (i 1)))

/-- The residual term of the second layer: row `i 0` of `x` against column `i 1` of `Wh2`. -/
def resid : FVec Ideal ⟨2, ![10000, 64]⟩ .f32 := fun i =>
  ∑ k : Fin 128, x (ix2 (i 0) k) * Wh2 (ix2 k (i 1))

/-- The first layer's output: the adjacency row against the support's column, plus the bias, rectified at the zero word. -/
def hidden : FVec Ideal ⟨2, ![10000, 64]⟩ .f32 := fun i =>
  max ((∑ n : Fin 10000, adj (ix2 (i 0) n) * support1 x W1 Wh1 (ix2 n (i 1))) + b1 (ix1 (i 1)))
    (Ideal.ofBits .f32 0x00000000#32)

/-- The second layer's support. -/
def support2 : FVec Ideal ⟨2, ![10000, 64]⟩ .f32 := fun i =>
  (∑ h : Fin 64, hidden adj x W1 Wh1 b1 (ix2 (i 0) h) * W2 (ix2 h (i 1))) + resid x Wh2 i

/-- The network's result. -/
def out : FVec Ideal ⟨2, ![10000, 64]⟩ .f32 := fun i =>
  (∑ n : Fin 10000, adj (ix2 (i 0) n) * support2 adj x W1 Wh1 b1 W2 Wh2 (ix2 n (i 1))) + b2 (ix1 (i 1))

end Cert.Gcn

end
-- ==== Proof.PayMatmul.lean ====
/-
  The three matrix products of the graph convolution's body, each read at a pair of coordinates: with the zero
  accumulator the product at (p, q) is the finite sum over the contracted index k of the left factor at (p, k) times the
  right factor at (k, q). The contraction's index set has one axis; the sum is re-indexed through the bijection of that
  axis with its coordinate, and the two operand indices are then identified coordinate by coordinate.
-/
import proofs.«157266_g59210419142979_cont_9to1c4b_462_8_alg».proof.Proof.Gen.KernelIdeal
import Idealize.ShloMosaic.Lib.ValueIdx
import Idealize.ShloMosaic.PureOps.Ideal.Laws

noncomputable section

namespace Cert.Gcn.Pay

open Cert.KernelIdeal Cert.KernelIdeal.Gen Idealize.ShloMosaic Idealize.ShloMosaic.ValueIdx

theorem matmul_features_lhs0 (i : S10000x64.Idx) (c : dot_S10000x128_S128x64_S10000x64_1_0_0_1_n_n.contr.Idx) : (dot_S10000x128_S128x64_S10000x64_1_0_0_1_n_n.lhsIdx i c 0).val = (i 0).val := by
  unfold DotDims.lhsIdx
  rw [dif_neg (show ¬(0 : Fin S10000x128.rank) ∈ dot_S10000x128_S128x64_S10000x64_1_0_0_1_n_n.lhsBatch by decide),
    dif_pos (show (0 : Fin S10000x128.rank) ∈ dot_S10000x128_S128x64_S10000x64_1_0_0_1_n_n.lhsNonContracting by decide)]
  rfl
theorem matmul_features_rhs1 (i : S10000x64.Idx) (c : dot_S10000x128_S128x64_S10000x64_1_0_0_1_n_n.contr.Idx) : (dot_S10000x128_S128x64_S10000x64_1_0_0_1_n_n.rhsIdx i c 1).val = (i 1).val := by
  unfold DotDims.rhsIdx
  rw [dif_neg (show ¬(1 : Fin S128x64.rank) ∈ dot_S10000x128_S128x64_S10000x64_1_0_0_1_n_n.rhsBatch by decide),
    dif_pos (show (1 : Fin S128x64.rank) ∈ dot_S10000x128_S128x64_S10000x64_1_0_0_1_n_n.rhsNonContracting by decide)]
  rfl

/-- Node features (10000 × 128) times a weight (128 × 64), into the zero accumulator, at row `p` and column `q`. -/
theorem matmul_features {φ₁ φ₂ : FTy} (x : FVec Ideal S10000x128 φ₁) (w : FVec Ideal S128x64 φ₂) (p : Fin 10000) (q : Fin 64) :
    matmul dot_S10000x128_S128x64_S10000x64_1_0_0_1_n_n none x w (constant (F := Ideal) S10000x64 .f32 0x00000000#32) (ix2 p q)
      = ∑ k : Fin 128, x (ix2 p k) * w (ix2 k q) := by
  refine (Ideal.matmul_constant_zero_apply dot_S10000x128_S128x64_S10000x64_1_0_0_1_n_n none x w (ix2 p q)).trans ?_
  rw [← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx (ix2 p q) ((contrEquiv1 dot_S10000x128_S128x64_S10000x64_1_0_0_1_n_n 128 rfl rfl).symm k) = ix2 p k :=
    funext fun a => Fin.ext (by
      match a with
      | ⟨0, _⟩ => exact matmul_features_lhs0 _ _
      | ⟨1, _⟩ => exact (dot_S10000x128_S128x64_S10000x64_1_0_0_1_n_n.lhsIdx_val_of_single rfl _ _).trans hk)
  have er : dot_S10000x128_S128x64_S10000x64_1_0_0_1_n_n.rhsIdx (ix2 p q) ((contrEquiv1 dot_S10000x128_S128x64_S10000x64_1_0_0_1_n_n 128 rfl rfl).symm k) = ix2 k q :=
    funext fun a => Fin.ext (by
      match a with
      | ⟨0, _⟩ => exact (dot_S10000x128_S128x64_S10000x64_1_0_0_1_n_n.rhsIdx_val_of_single rfl _ _).trans hk
      | ⟨1, _⟩ => exact matmul_features_rhs1 _ _)
  rw [el, er]

theorem matmul_adjacency_lhs0 (i : S400x64.Idx) (c : dot_S400x10000_S10000x64_S400x64_1_0_0_1_n_n.contr.Idx) : (dot_S400x10000_S10000x64_S400x64_1_0_0_1_n_n.lhsIdx i c 0).val = (i 0).val := by
  unfold DotDims.lhsIdx
  rw [dif_neg (show ¬(0 : Fin S400x10000.rank) ∈ dot_S400x10000_S10000x64_S400x64_1_0_0_1_n_n.lhsBatch by decide),
    dif_pos (show (0 : Fin S400x10000.rank) ∈ dot_S400x10000_S10000x64_S400x64_1_0_0_1_n_n.lhsNonContracting by decide)]
  rfl
theorem matmul_adjacency_rhs1 (i : S400x64.Idx) (c : dot_S400x10000_S10000x64_S400x64_1_0_0_1_n_n.contr.Idx) : (dot_S400x10000_S10000x64_S400x64_1_0_0_1_n_n.rhsIdx i c 1).val = (i 1).val := by
  unfold DotDims.rhsIdx
  rw [dif_neg (show ¬(1 : Fin S10000x64.rank) ∈ dot_S400x10000_S10000x64_S400x64_1_0_0_1_n_n.rhsBatch by decide),
    dif_pos (show (1 : Fin S10000x64.rank) ∈ dot_S400x10000_S10000x64_S400x64_1_0_0_1_n_n.rhsNonContracting by decide)]
  rfl

/-- A band of 400 adjacency rows (400 × 10000) times a support (10000 × 64), into the zero accumulator, at row `p` and column `q`. -/
theorem matmul_adjacency {φ₁ φ₂ : FTy} (x : FVec Ideal S400x10000 φ₁) (w : FVec Ideal S10000x64 φ₂) (p : Fin 400) (q : Fin 64) :
    matmul dot_S400x10000_S10000x64_S400x64_1_0_0_1_n_n none x w (constant (F := Ideal) S400x64 .f32 0x00000000#32) (ix2 p q)
      = ∑ k : Fin 10000, x (ix2 p k) * w (ix2 k q) := by
  refine (Ideal.matmul_constant_zero_apply dot_S400x10000_S10000x64_S400x64_1_0_0_1_n_n none x w (ix2 p q)).trans ?_
  rw [← Equiv.sum_comp (contrEquiv1 dot_S400x10000_S10000x64_S400x64_1_0_0_1_n_n 10000 rfl rfl).symm]
  refine Finset.sum_congr rfl fun k _ => ?_
  have hk := contrEquiv1_symm_val dot_S400x10000_S10000x64_S400x64_1_0_0_1_n_n 10000 rfl rfl k
  have el : dot_S400x10000_S10000x64_S400x64_1_0_0_1_n_n.lhsIdx (ix2 p q) ((contrEquiv1 dot_S400x10000_S10000x64_S400x64_1_0_0_1_n_n 10000 rfl rfl).symm k) = ix2 p k :=
    funext fun a => Fin.ext (by
      match a with
      | ⟨0, _⟩ => exact matmul_adjacency_lhs0 _ _
      | ⟨1, _⟩ => exact (dot_S400x10000_S10000x64_S400x64_1_0_0_1_n_n.lhsIdx_val_of_single rfl _ _).trans hk)
  have er : dot_S400x10000_S10000x64_S400x64_1_0_0_1_n_n.rhsIdx (ix2 p q) ((contrEquiv1 dot_S400x10000_S10000x64_S400x64_1_0_0_1_n_n 10000 rfl rfl).symm k) = ix2 k q :=
    funext fun a => Fin.ext (by
      match a with
      | ⟨0, _⟩ => exact (dot_S400x10000_S10000x64_S400x64_1_0_0_1_n_n.rhsIdx_val_of_single rfl _ _).trans hk
      | ⟨1, _⟩ => exact matmul_adjacency_rhs1 _ _)
  rw [el, er]

theorem matmul_hidden_lhs0 (i : S400x64.Idx) (c : dot_S400x64_S64x64_S400x64_1_0_0_1_n_n.contr.Idx) : (dot_S400x64_S64x64_S400x64_1_0_0_1_n_n.lhsIdx i c 0).val = (i 0).val := by
  unfold DotDims.lhsIdx
  rw [dif_neg (show ¬(0 : Fin S400x64.rank) ∈ dot_S400x64_S64x64_S400x64_1_0_0_1_n_n.lhsBatch by decide),
    dif_pos (show (0 : Fin S400x64.rank) ∈ dot_S400x64_S64x64_S400x64_1_0_0_1_n_n.lhsNonContracting by decide)]
  rfl
theorem matmul_hidden_rhs1 (i : S400x64.Idx) (c : dot_S400x64_S64x64_S400x64_1_0_0_1_n_n.contr.Idx) : (dot_S400x64_S64x64_S400x64_1_0_0_1_n_n.rhsIdx i c 1).val = (i 1).val := by
  unfold DotDims.rhsIdx
  rw [dif_neg (show ¬(1 : Fin S64x64.rank) ∈ dot_S400x64_S64x64_S400x64_1_0_0_1_n_n.rhsBatch by decide),
    dif_pos (show (1 : Fin S64x64.rank) ∈ dot_S400x64_S64x64_S400x64_1_0_0_1_n_n.rhsNonContracting by decide)]
  rfl

/-- A band of hidden rows (400 × 64) times the second weight (64 × 64), into the zero accumulator, at row `p` and column `q`. -/
theorem matmul_hidden {φ₁ φ₂ : FTy} (x : FVec Ideal S400x64 φ₁) (w : FVec Ideal S64x64 φ₂) (p : Fin 400) (q : Fin 64) :
    matmul dot_S400x64_S64x64_S400x64_1_0_0_1_n_n none x w (constant (F := Ideal) S400x64 .f32 0x00000000#32) (ix2 p q)
      = ∑ k : Fin 64, x (ix2 p k) * w (ix2 k q) := by
  refine (Ideal.matmul_constant_zero_apply dot_S400x64_S64x64_S400x64_1_0_0_1_n_n none x w (ix2 p q)).trans ?_
  rw [← Equiv.sum_comp (contrEquiv1 dot_S400x64_S64x64_S400x64_1_0_0_1_n_n 64 rfl rfl).symm]
  refine Finset.sum_congr rfl fun k _ => ?_
  have hk := contrEquiv1_symm_val dot_S400x64_S64x64_S400x64_1_0_0_1_n_n 64 rfl rfl k
  have el : dot_S400x64_S64x64_S400x64_1_0_0_1_n_n.lhsIdx (ix2 p q) ((contrEquiv1 dot_S400x64_S64x64_S400x64_1_0_0_1_n_n 64 rfl rfl).symm k) = ix2 p k :=
    funext fun a => Fin.ext (by
      match a with
      | ⟨0, _⟩ => exact matmul_hidden_lhs0 _ _
      | ⟨1, _⟩ => exact (dot_S400x64_S64x64_S400x64_1_0_0_1_n_n.lhsIdx_val_of_single rfl _ _).trans hk)
  have er : dot_S400x64_S64x64_S400x64_1_0_0_1_n_n.rhsIdx (ix2 p q) ((contrEquiv1 dot_S400x64_S64x64_S400x64_1_0_0_1_n_n 64 rfl rfl).symm k) = ix2 k q :=
    funext fun a => Fin.ext (by
      match a with
      | ⟨0, _⟩ => exact (dot_S400x64_S64x64_S400x64_1_0_0_1_n_n.rhsIdx_val_of_single rfl _ _).trans hk
      | ⟨1, _⟩ => exact matmul_hidden_rhs1 _ _)
  rw [el, er]

end Cert.Gcn.Pay

end
-- ==== Proof.PayFirst.lean ====
/-
  The two products the body forms once, at the first grid point, read at an index: the first layer's support
  x · (W1 + Wh1) and the second layer's residual x · Wh2. On the extended reals a change of float format and a cast of
  a shape to itself are the identity, so each is the matrix product alone, at the zero accumulator: the finite sum of
  the specification.
-/
import proofs.«157266_g59210419142979_cont_9to1c4b_462_8_alg».proof.Proof.Gen.KernelIdeal.Skeleton
import proofs.«157266_g59210419142979_cont_9to1c4b_462_8_alg».proof.Proof.Spec
import proofs.«157266_g59210419142979_cont_9to1c4b_462_8_alg».proof.Proof.PayMatmul
import Idealize.ShloMosaic.Lib.Pipeline.Value

noncomputable section

namespace Cert.Gcn.Pay

open Cert.KernelIdeal Cert.KernelIdeal.Gen Idealize.ShloMosaic Idealize.ShloMosaic.ValueIdx

/-- The first layer's support as the body computes it, the two weights added before the product, is the
    specification's, index by index. -/
theorem pay1_apply (x : Vec Ideal S10000x128 .f32) (w1 wh1 : Vec Ideal S128x64 .f32) (i : S10000x64.Idx) :
    k0_pay1 (F := Ideal) x w1 wh1 i = Cert.Gcn.support1 x w1 wh1 i := by
  obtain ⟨p, q, rfl⟩ : ∃ (p : Fin 10000) (q : Fin 64), i = ix2 p q := ⟨i 0, i 1, eq_ix2 i⟩
  unfold k0_pay1
  refine (congrFun (shapeCast_self _ shapeCasts_S10000x64_S10000x64) (ix2 p q)).trans ?_
  refine (matmul_features x (addf w1 wh1) p q).trans ?_
  rfl

/-- The residual product as the body computes it is the specification's, index by index. -/
theorem pay2_apply (x : Vec Ideal S10000x128 .f32) (wh2 : Vec Ideal S128x64 .f32) (i : S10000x64.Idx) :
    k0_pay2 (F := Ideal) x wh2 i = Cert.Gcn.resid x wh2 i := by
  obtain ⟨p, q, rfl⟩ : ∃ (p : Fin 10000) (q : Fin 64), i = ix2 p q := ⟨i 0, i 1, eq_ix2 i⟩
  unfold k0_pay2
  refine (congrFun (shapeCast_self _ shapeCasts_S10000x64_S10000x64) (ix2 p q)).trans ?_
  refine (matmul_features x wh2 p q).trans ?_
  rfl

/-- The same two facts as equations of functions on the index set. -/
theorem pay1_eq (x : Vec Ideal S10000x128 .f32) (w1 wh1 : Vec Ideal S128x64 .f32) :
    (k0_pay1 (F := Ideal) x w1 wh1 : S10000x64.Idx → EReal) = Cert.Gcn.support1 x w1 wh1 :=
  funext (pay1_apply x w1 wh1)
theorem pay2_eq (x : Vec Ideal S10000x128 .f32) (wh2 : Vec Ideal S128x64 .f32) :
    (k0_pay2 (F := Ideal) x wh2 : S10000x64.Idx → EReal) = Cert.Gcn.resid x wh2 :=
  funext (pay2_apply x wh2)

end Cert.Gcn.Pay

end
-- ==== Proof.PayOut.lean ====
/-
  The body's last product read at a pair of coordinates: a band of 400 adjacency rows against a support
  (10000 × 64), plus the bias row broadcast over the band. On the extended reals the narrowing of the adjacency band to
  a shorter float format is the identity, the product into the zero accumulator is the finite sum over the 10000
  nodes, a cast of the bias row's shape to itself is the identity, and the row broadcast reads the bias at its column.
-/
import proofs.«157266_g59210419142979_cont_9to1c4b_462_8_alg».proof.Proof.Gen.KernelIdeal.Skeleton
import proofs.«157266_g59210419142979_cont_9to1c4b_462_8_alg».proof.Proof.PayMatmul
import Idealize.ShloMosaic.Lib.Pipeline.Value
import Idealize.ShloMosaic.Lib.ValueLayout

noncomputable section

namespace Cert.Gcn.Pay

open Cert.KernelIdeal Cert.KernelIdeal.Gen Idealize.ShloMosaic Idealize.ShloMosaic.ValueIdx

/-- The bias row [1, 64], cast to its own shape and broadcast over 400 rows, reads at (r, j) the bias at column j. -/
theorem bias_row_apply (b : Vec Ideal S1x64 .f32) (r : Fin 400) (j : Fin 64) :
    broadcastTo S400x64 (shapeCast S1x64 b shapeCasts_S1x64_S1x64) broadcasts_S1x64_S400x64 (ix2 r j)
      = b (ix2 (0 : Fin 1) j) :=
  (broadcastTo_1b_ab_apply _ broadcasts_S1x64_S400x64 r j).trans
    (congrFun (shapeCast_self b shapeCasts_S1x64_S1x64) (ix2 (0 : Fin 1) j))

/-- Row r of the adjacency band against column j of the support, plus the bias at column j. -/
theorem pay6_apply (a : Vec Ideal S400x10000 .f32) (s2 : Vec Ideal S10000x64 .bf16) (b : Vec Ideal S1x64 .f32)
    (r : Fin 400) (j : Fin 64) :
    k0_pay6 (F := Ideal) a s2 b (ix2 r j)
      = (∑ n : Fin 10000, a (ix2 r n) * s2 (ix2 n j)) + b (ix2 (0 : Fin 1) j) := by
  unfold k0_pay6
  refine (addf_apply _ _ (ix2 r j)).trans ?_
  refine congrArg₂ (· + ·) ?_ (bias_row_apply b r j)
  refine (matmul_adjacency (k0_pay3 a) s2 r j).trans ?_
  rfl

end Cert.Gcn.Pay

end
-- ==== Proof.PayHidden.lean ====
/-
  The body's middle step read at a pair of coordinates: the first layer's pre-activation (a band of adjacency rows
  against the support, plus the bias row) rectified at the zero word, multiplied by the second weight (64 × 64), plus the
  band of the residual. The pre-activation is the same term as the body's last product, so its reading is reused; the
  rectifier's splat of the zero word reads that word at every index; the copy narrowed to a shorter float format and
  cast to its own shape is, on the extended reals, the same function.
-/
import proofs.«157266_g59210419142979_cont_9to1c4b_462_8_alg».proof.Proof.Gen.KernelIdeal.Skeleton
import proofs.«157266_g59210419142979_cont_9to1c4b_462_8_alg».proof.Proof.PayMatmul
import proofs.«157266_g59210419142979_cont_9to1c4b_462_8_alg».proof.Proof.PayOut
import Idealize.ShloMosaic.Lib.Pipeline.Value

noncomputable section

namespace Cert.Gcn.Pay

open Cert.KernelIdeal Cert.KernelIdeal.Gen Idealize.ShloMosaic Idealize.ShloMosaic.ValueIdx

/-- The rectified first layer at (r, h) times the second weight, summed over h, plus the residual at (r, j). -/
theorem pay4_apply (a : Vec Ideal S400x10000 .f32) (s0 : Vec Ideal S10000x64 .bf16) (b : Vec Ideal S1x64 .f32)
    (w2 : Vec Ideal S64x64 .f32) (pb : Vec Ideal S400x64 .f32) (r : Fin 400) (j : Fin 64) :
    k0_pay4 (F := Ideal) a s0 b w2 pb (ix2 r j)
      = (∑ h : Fin 64, max ((∑ n : Fin 10000, a (ix2 r n) * s0 (ix2 n h)) + b (ix2 (0 : Fin 1) h))
            (Ideal.ofBits .f32 0x00000000#32) * w2 (ix2 h j)) + pb (ix2 r j) := by
  unfold k0_pay4
  refine (addf_apply _ _ (ix2 r j)).trans ?_
  refine congrArg (· + pb (ix2 r j)) ?_
  refine (matmul_hidden _ w2 r j).trans ?_
  refine Finset.sum_congr rfl fun h _ => ?_
  refine congrArg (· * w2 (ix2 h j)) ?_
  refine (maximumf_apply _ _ (ix2 r h)).trans ?_
  exact congrArg₂ max (pay6_apply a s0 b r h) rfl

/-- The stored copy of the same value, narrowed and cast to its own shape: the same extended real. -/
theorem pay5_apply (a : Vec Ideal S400x10000 .f32) (s0 : Vec Ideal S10000x64 .bf16) (b : Vec Ideal S1x64 .f32)
    (w2 : Vec Ideal S64x64 .f32) (pb : Vec Ideal S400x64 .f32) (r : Fin 400) (j : Fin 64) :
    k0_pay5 (F := Ideal) a s0 b w2 pb (ix2 r j)
      = (∑ h : Fin 64, max ((∑ n : Fin 10000, a (ix2 r n) * s0 (ix2 n h)) + b (ix2 (0 : Fin 1) h))
            (Ideal.ofBits .f32 0x00000000#32) * w2 (ix2 h j)) + pb (ix2 r j) := by
  unfold k0_pay5
  refine (congrFun (shapeCast_self _ shapeCasts_S400x64_S400x64) (ix2 r j)).trans ?_
  exact pay4_apply a s0 b w2 pb r j

/-- The stored copy is the value itself, as functions on the band's index set. -/
theorem pay5_eq_pay4 (a : Vec Ideal S400x10000 .f32) (s0 : Vec Ideal S10000x64 .bf16) (b : Vec Ideal S1x64 .f32)
    (w2 : Vec Ideal S64x64 .f32) (pb : Vec Ideal S400x64 .f32) :
    (k0_pay5 (F := Ideal) a s0 b w2 pb : S400x64.Idx → EReal) = k0_pay4 (F := Ideal) a s0 b w2 pb := by
  unfold k0_pay5
  exact shapeCast_self _ shapeCasts_S400x64_S400x64

end Cert.Gcn.Pay

end
-- ==== Proof.KIBridgeLayers.lean ====
/-
  One row of the body's two later products is one row of the specification's layers. Take a band of 400 adjacency
  rows whose row r is row R of the whole adjacency, a bias row [1, 64] that holds the bias vector, and — for the middle
  step — the first support and the entry of the residual at row R. Then the middle step at (r, j) is the second
  support at (R, j): the rectified first layer at (R, h), summed against the second weight over h, plus the residual;
  and the last step, taken against the whole second support, is the network's result at (R, j). Both are
  term-by-term rewritings under the sums: nothing is reassociated.
-/
import proofs.«157266_g59210419142979_cont_9to1c4b_462_8_alg».proof.Proof.Gen.KernelIdeal.Skeleton
import proofs.«157266_g59210419142979_cont_9to1c4b_462_8_alg».proof.Proof.Spec
import proofs.«157266_g59210419142979_cont_9to1c4b_462_8_alg».proof.Proof.PayHidden
import proofs.«157266_g59210419142979_cont_9to1c4b_462_8_alg».proof.Proof.PayOut

noncomputable section

namespace Cert.KernelIdeal.Body

open Cert.KernelIdeal Cert.KernelIdeal.Gen
open Idealize.ShloMosaic Idealize.ShloMosaic.ValueIdx

variable (adj : FVec Ideal ⟨2, ![10000, 10000]⟩ .f32) (x : FVec Ideal ⟨2, ![10000, 128]⟩ .f32)
  (W1 Wh1 : FVec Ideal ⟨2, ![128, 64]⟩ .f32) (b1 : FVec Ideal ⟨1, ![64]⟩ .f32) (W2 : FVec Ideal ⟨2, ![64, 64]⟩ .f32)
  (Wh2 : FVec Ideal ⟨2, ![128, 64]⟩ .f32) (b2 : FVec Ideal ⟨1, ![64]⟩ .f32)

/-- The middle step at row r of a band is the second support at the band's row R of the whole array. -/
theorem pay4_support2 (a : Vec Ideal S400x10000 .f32) (bb : Vec Ideal S1x64 .f32) (pb : Vec Ideal S400x64 .f32)
    (r : Fin 400) (j : Fin 64) (R : Fin 10000)
    (ha : ∀ n : Fin 10000, a (ix2 r n) = adj (ix2 R n))
    (hb : ∀ h : Fin 64, bb (ix2 (0 : Fin 1) h) = b1 (ix1 h))
    (hpb : pb (ix2 r j) = Cert.Gcn.resid x Wh2 (ix2 R j)) :
    k0_pay4 (F := Ideal) a (Cert.Gcn.support1 x W1 Wh1) bb W2 pb (ix2 r j)
      = Cert.Gcn.support2 adj x W1 Wh1 b1 W2 Wh2 (ix2 R j) := by
  refine (Cert.Gcn.Pay.pay4_apply a (Cert.Gcn.support1 x W1 Wh1) bb W2 pb r j).trans ?_
  show _ = (∑ h : Fin 64, max ((∑ n : Fin 10000, adj (ix2 R n) * Cert.Gcn.support1 x W1 Wh1 (ix2 n h)) + b1 (ix1 h))
      (Ideal.ofBits .f32 0x00000000#32) * W2 (ix2 h j)) + Cert.Gcn.resid x Wh2 (ix2 R j)
  rw [hpb]
  refine congrArg (· + Cert.Gcn.resid x Wh2 (ix2 R j)) (Finset.sum_congr rfl fun h _ => ?_)
  rw [hb h]
  refine congrArg (fun s => max (s + b1 (ix1 h)) (Ideal.ofBits .f32 0x00000000#32) * W2 (ix2 h j))
    (Finset.sum_congr rfl fun n _ => ?_)
  rw [ha n]

/-- The last step at row r of a band, against the whole second support, is the result at row R. -/
theorem pay6_out (a : Vec Ideal S400x10000 .f32) (bb : Vec Ideal S1x64 .f32)
    (r : Fin 400) (j : Fin 64) (R : Fin 10000)
    (ha : ∀ n : Fin 10000, a (ix2 r n) = adj (ix2 R n))
    (hb : bb (ix2 (0 : Fin 1) j) = b2 (ix1 j)) :
    k0_pay6 (F := Ideal) a (Cert.Gcn.support2 adj x W1 Wh1 b1 W2 Wh2) bb (ix2 r j)
      = Cert.Gcn.out adj x W1 Wh1 b1 W2 Wh2 b2 (ix2 R j) := by
  refine (Cert.Gcn.Pay.pay6_apply a (Cert.Gcn.support2 adj x W1 Wh1 b1 W2 Wh2) bb r j).trans ?_
  show _ = (∑ n : Fin 10000, adj (ix2 R n) * Cert.Gcn.support2 adj x W1 Wh1 b1 W2 Wh2 (ix2 n j)) + b2 (ix1 j)
  rw [hb]
  refine congrArg (· + b2 (ix1 j)) (Finset.sum_congr rfl fun n _ => ?_)
  rw [ha n]

end Cert.KernelIdeal.Body

end
-- ==== Proof.KIBridge.lean ====
/-
  The buffers' contents, point by point, are the layers of the specification. Every window's block is a part of an
  argument array: the adjacency's block at a point is a band of 400 of its rows, the features and the four weights are
  whole arrays, the two bias rows [1, 64] hold the bias vectors, and the 400 rows of a 10000-row array read at a point
  of the first pass are its rows from 400 · t on. Given those readings: the prologue's two stores are the first
  support and the residual; the block computed at point t of the first pass is rows 400 · t … 400 · t + 399 of the
  second support, so the array assembled from the 25 blocks (row y from block y / 400 at its row y % 400, and
  y = 400 · (y / 400) + y % 400) is the whole second support; and the block computed at point t of the second pass,
  whose adjacency band starts at row 400 · (t − 25), is those rows of the network's result.
-/
import proofs.«157266_g59210419142979_cont_9to1c4b_462_8_alg».proof.Proof.KIVals
import proofs.«157266_g59210419142979_cont_9to1c4b_462_8_alg».proof.Proof.Spec
import proofs.«157266_g59210419142979_cont_9to1c4b_462_8_alg».proof.Proof.PayFirst
import proofs.«157266_g59210419142979_cont_9to1c4b_462_8_alg».proof.Proof.KIBridgeLayers

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (c : Dev nD)

/-- How each window's block at a point, and a band of rows of a 10000-row array, read the arrays they are parts of. -/
structure BlockReads : Prop where
  /-- the adjacency's block at point t is its rows from 400 · (t mod 25) on -/
  adjRows : ∀ (t : Fin cfg0.N) (r : Fin 400) (n : Fin 10000) (R : Fin 10000), R.val = 400 * (t.val % 25) + r.val →
    (iblk m c 0 t : Vec Ideal S400x10000 .f32) (ix2 r n) = m ((c : Thread nD τ).loc main_arg0) (ix2 R n)
  /-- the node features, whole -/
  feats : ∀ t : Fin cfg0.N, (iblk m c 1 t : Vec Ideal S10000x128 .f32) = m ((c : Thread nD τ).loc main_arg1)
  /-- the first layer's two weights, whole -/
  w1 : ∀ t : Fin cfg0.N, (iblk m c 2 t : Vec Ideal S128x64 .f32) = m ((c : Thread nD τ).loc main_arg2)
  wh1 : ∀ t : Fin cfg0.N, (iblk m c 3 t : Vec Ideal S128x64 .f32) = m ((c : Thread nD τ).loc main_arg3)
  /-- the residual's weight, whole -/
  wh2 : ∀ t : Fin cfg0.N, (iblk m c 4 t : Vec Ideal S128x64 .f32) = m ((c : Thread nD τ).loc main_arg6)
  /-- the second layer's weight, whole -/
  w2 : ∀ t : Fin cfg0.N, (iblk m c 5 t : Vec Ideal S64x64 .f32) = m ((c : Thread nD τ).loc main_arg5)
  /-- the two bias rows hold the bias vectors -/
  bias1 : ∀ (t : Fin cfg0.N) (h : Fin 64),
    (iblk m c 6 t : Vec Ideal S1x64 .f32) (ix2 (0 : Fin 1) h) = m ((c : Thread nD τ).loc main_arg4) (ix1 h)
  bias2 : ∀ (t : Fin cfg0.N) (h : Fin 64),
    (iblk m c 7 t : Vec Ideal S1x64 .f32) (ix2 (0 : Fin 1) h) = m ((c : Thread nD τ).loc main_arg7) (ix1 h)
  /-- the 400 rows read at a point of the first pass are the array's rows from 400 · t on -/
  rows : ∀ (X : Vec Ideal S10000x64 .f32) (t : Fin cfg0.N) (h : t.val < 25) (r : Fin 400) (j : Fin 64) (R : Fin 10000),
    R.val = 400 * t.val + r.val →
    View.ld X (rowsAt (grid0.coords t) ((cond2_iff t).mpr h)) (ix2 r j) = X (ix2 R j)

variable {m c}

/-- A row of a band of the first pass is a row of the whole array. -/
theorem band_row_lt {t : ℕ} (h : t < 25) (r : Fin 400) : 400 * t + r.val < 10000 := by
  have := r.isLt; omega

theorem point_lt (t : Fin cfg0.N) : t.val < 50 :=
  Nat.lt_of_lt_of_eq t.isLt (show cfg0.N = 50 from N_0)

/-! ## The prologue's two stores -/

/-- The first scratch holds the first support. -/
theorem sup1_eq (R : BlockReads m c) :
    (sup1 (F := Ideal) m c : S10000x64.Idx → EReal) = Cert.Gcn.support1 (m ((c : Thread nD τ).loc main_arg1)) (m ((c : Thread nD τ).loc main_arg2)) (m ((c : Thread nD τ).loc main_arg3)) := by
  unfold sup1
  rw [R.feats t0, R.w1 t0, R.wh1 t0]
  exact Cert.Gcn.Pay.pay1_eq _ _ _

/-- The second scratch holds the residual. -/
theorem res_eq (R : BlockReads m c) :
    (res (F := Ideal) m c : S10000x64.Idx → EReal) = Cert.Gcn.resid (m ((c : Thread nD τ).loc main_arg1)) (m ((c : Thread nD τ).loc main_arg6)) := by
  unfold res
  rw [R.feats t0, R.wh2 t0]
  exact Cert.Gcn.Pay.pay2_eq _ _

/-! ## The first pass: one block of the second support per point -/

/-- The block computed at point t of the first pass, at its row r, is row R = 400 · t + r of the second support. -/
theorem blk2_apply (R : BlockReads m c) (t : Fin cfg0.N) (h : t.val < 25) (r : Fin 400) (j : Fin 64)
    (Rw : Fin 10000) (hR : Rw.val = 400 * t.val + r.val) :
    blk2 (F := Ideal) m c t h (ix2 r j) = Cert.Gcn.support2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 Rw j) := by
  unfold blk2
  refine (congrFun (congrArg (fun s : S10000x64.Idx → EReal => k0_pay4 (F := Ideal) (iblk m c 0 t) s (iblk m c 6 t)
    (iblk m c 5 t) (View.ld (res m c) (rowsAt (grid0.coords t) ((cond2_iff t).mpr h)))) (sup1_eq R)) (ix2 r j)).trans ?_
  rw [R.w2 t]
  exact pay4_support2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (iblk m c 0 t) (iblk m c 6 t)
    (View.ld (res m c) (rowsAt (grid0.coords t) ((cond2_iff t).mpr h))) r j Rw
    (fun n => R.adjRows t r n Rw (by rw [Nat.mod_eq_of_lt h]; exact hR)) (R.bias1 t)
    ((R.rows (res m c) t h r j Rw hR).trans (congrFun (res_eq R) (ix2 Rw j)))

/-- The copy of that block stored in the third scratch is the same. -/
theorem blk2b_apply (R : BlockReads m c) (t : Fin cfg0.N) (h : t.val < 25) (r : Fin 400) (j : Fin 64)
    (Rw : Fin 10000) (hR : Rw.val = 400 * t.val + r.val) :
    blk2b (F := Ideal) m c t h (ix2 r j) = Cert.Gcn.support2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 Rw j) := by
  refine Eq.trans ?_ (blk2_apply R t h r j Rw hR)
  unfold blk2b blk2
  exact congrFun (Cert.Gcn.Pay.pay5_eq_pay4 _ _ _ _ _) (ix2 r j)

/-- The same two facts with the row written out. -/
theorem blk2_row (R : BlockReads m c) (t : Fin cfg0.N) (h : t.val < 25) (r : Fin 400) (j : Fin 64) :
    blk2 (F := Ideal) m c t h (ix2 r j)
      = Cert.Gcn.support2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 ⟨400 * t.val + r.val, band_row_lt h r⟩ j) :=
  blk2_apply R t h r j _ rfl
theorem blk2b_row (R : BlockReads m c) (t : Fin cfg0.N) (h : t.val < 25) (r : Fin 400) (j : Fin 64) :
    blk2b (F := Ideal) m c t h (ix2 r j)
      = Cert.Gcn.support2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 ⟨400 * t.val + r.val, band_row_lt h r⟩ j) :=
  blk2b_apply R t h r j _ rfl

/-- The third scratch, once the first pass is over, holds the second support: row y is row y mod 400 of the block of
    point y / 400, and y = 400 · (y / 400) + y mod 400. -/
theorem sup2_eq (R : BlockReads m c) :
    (sup2 (F := Ideal) m c : S10000x64.Idx → EReal) = Cert.Gcn.support2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext y
  obtain ⟨p, q, rfl⟩ : ∃ (p : Fin 10000) (q : Fin 64), y = ix2 p q := ⟨y 0, y 1, eq_ix2 y⟩
  unfold sup2
  exact blk2b_apply R (ptOf (ix2 p q)) (row_div_lt (ix2 p q)) ⟨p.val % 400, Nat.mod_lt _ (by decide)⟩ q p
    (by show p.val = 400 * (p.val / 400) + p.val % 400; omega)

/-! ## The second pass: one block of the result per point -/

/-- The block computed at point t of the second pass, at its row r, is row R = 400 · (t − 25) + r of the result. -/
theorem outBlk_apply (R : BlockReads m c) (t : Fin cfg0.N) (h : 25 ≤ t.val) (r : Fin 400) (j : Fin 64)
    (Rw : Fin 10000) (hR : Rw.val = 400 * (t.val - 25) + r.val) :
    outBlk (F := Ideal) m c t (ix2 r j) = Cert.Gcn.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 Rw j) := by
  refine (congrFun (outBlk_second m c t (Nat.not_lt.mpr h)) (ix2 r j)).trans ?_
  refine (congrFun (congrArg (fun s : S10000x64.Idx → EReal => k0_pay6 (F := Ideal) (iblk m c 0 t) s (iblk m c 7 t))
    (sup2_eq R)) (ix2 r j)).trans ?_
  exact pay6_out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (iblk m c 0 t) (iblk m c 7 t) r j Rw
    (fun n => R.adjRows t r n Rw (by have := point_lt t; omega)) (R.bias2 t j)

/-- A row of a band of the second pass is a row of the whole array. -/
theorem band_row_lt' (t : Fin cfg0.N) (r : Fin 400) : 400 * (t.val - 25) + r.val < 10000 := by
  have := point_lt t; have := r.isLt; omega

/-- The same with the row written out. -/
theorem outBlk_row (R : BlockReads m c) (t : Fin cfg0.N) (h : 25 ≤ t.val) (r : Fin 400) (j : Fin 64) :
    outBlk (F := Ideal) m c t (ix2 r j)
      = Cert.Gcn.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 ⟨400 * (t.val - 25) + r.val, band_row_lt' t r⟩ j) :=
  outBlk_apply R t h r j _ rfl

end Cert.KernelIdeal.Body

end
-- ==== Proof.KIBridgeReads.lean ====
/-
  The readings of the windows' blocks, assembled: with them the buffers' contents are the specification's layers with
  no hypothesis left — the first two scratch buffers hold the first support and the residual, the third (after the
  first pass) the second support, and the block of the output computed at a point of the second pass is its 400 rows of
  the network's result.
-/
import proofs.«157266_g59210419142979_cont_9to1c4b_462_8_alg».proof.Proof.KIBlocks
import proofs.«157266_g59210419142979_cont_9to1c4b_462_8_alg».proof.Proof.KIBridge

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (c : Dev nD)

/-- Every window's block reads its array as the grid's block indices say. -/
theorem blockReads : BlockReads m c where
  adjRows t r n R hR := (iblk0_apply m c t r n).trans (congrArg (fun q : Fin 10000 => m ((c : Thread nD τ).loc main_arg0) (ix2 q n)) (Fin.ext hR.symm))
  feats := iblk1_eq m c
  w1 := iblk2_eq m c
  wh1 := iblk3_eq m c
  wh2 := iblk4_eq m c
  w2 := iblk5_eq m c
  bias1 := iblk6_apply m c
  bias2 := iblk7_apply m c
  rows X t h r j R hR := (ld_rows_apply X t h r j).trans (congrArg (fun q : Fin 10000 => X (ix2 q j)) (Fin.ext hR.symm))

/-- The first scratch holds the first support. -/
theorem sup1_spec : (sup1 (F := Ideal) m c : S10000x64.Idx → EReal) = Cert.Gcn.support1 (m ((c : Thread nD τ).loc main_arg1)) (m ((c : Thread nD τ).loc main_arg2)) (m ((c : Thread nD τ).loc main_arg3)) :=
  sup1_eq (blockReads m c)

/-- The second scratch holds the residual. -/
theorem res_spec : (res (F := Ideal) m c : S10000x64.Idx → EReal) = Cert.Gcn.resid (m ((c : Thread nD τ).loc main_arg1)) (m ((c : Thread nD τ).loc main_arg6)) :=
  res_eq (blockReads m c)

/-- The block of point t of the first pass is rows 400 · t … of the second support. -/
theorem blk2_spec (t : Fin cfg0.N) (h : t.val < 25) (r : Fin 400) (j : Fin 64) :
    blk2 (F := Ideal) m c t h (ix2 r j)
      = Cert.Gcn.support2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 ⟨400 * t.val + r.val, band_row_lt h r⟩ j) :=
  blk2_row (blockReads m c) t h r j
theorem blk2b_spec (t : Fin cfg0.N) (h : t.val < 25) (r : Fin 400) (j : Fin 64) :
    blk2b (F := Ideal) m c t h (ix2 r j)
      = Cert.Gcn.support2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 ⟨400 * t.val + r.val, band_row_lt h r⟩ j) :=
  blk2b_row (blockReads m c) t h r j

/-- The third scratch, once the first pass is over, holds the second support. -/
theorem sup2_spec : (sup2 (F := Ideal) m c : S10000x64.Idx → EReal) = Cert.Gcn.support2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  sup2_eq (blockReads m c)

/-- The block of point t of the second pass is rows 400 · (t − 25) … of the network's result. -/
theorem outBlk_spec (t : Fin cfg0.N) (h : 25 ≤ t.val) (r : Fin 400) (j : Fin 64) :
    outBlk (F := Ideal) m c t (ix2 r j)
      = Cert.Gcn.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 ⟨400 * (t.val - 25) + r.val, band_row_lt' t r⟩ j) :=
  outBlk_row (blockReads m c) t h r j

end Cert.KernelIdeal.Body

end
-- ==== Proof.KIBridgeOut.lean ====
/-
  The block of the output computed at a point of the second pass is the network's result read through the output
  window's block at that point: the block of point t sits at rows 400 · (t − 25) … 400 · (t − 25) + 399 of the output,
  and at its row r the computed block is the result's row 400 · (t − 25) + r.
-/
import proofs.«157266_g59210419142979_cont_9to1c4b_462_8_alg».proof.Proof.KIBridgeReads

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (c : Dev nD)

/-- At a point of the second pass, what the body leaves in the output's staging buffer is the result seen through the
    window's block. -/
theorem outBlk_read (t : Fin cfg0.N) (h : 25 ≤ t.val) :
    (outBlk (F := Ideal) m c t : S400x64.Idx → Elt Ideal .f32)
      = (((cfg0.win 8).blk t).view.read (Elt Ideal)
          (Cert.Gcn.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) : S10000x64.Idx → Elt Ideal .f32) : S400x64.Idx → Elt Ideal .f32) := by
  funext y
  obtain ⟨r, j, rfl⟩ : ∃ (r : Fin 400) (j : Fin 64), y = ix2 r j := ⟨y 0, y 1, eq_ix2 y⟩
  exact (outBlk_spec m c t h r j).trans
    (blk8_read_apply (F := Ideal) (Cert.Gcn.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) : S10000x64.Idx → Elt Ideal .f32) t h r j).symm

end Cert.KernelIdeal.Body

end
-- ==== Proof.KIFinal.lean ====
/-
  The kernel's result array. The output's staging buffer is written back only at the points of the second pass, point
  25 + b into the rows [400·b, 400·b + 400) of the result; those 25 blocks tile its 10000 rows, and what point 25 + b
  writes there is rows [400·b, 400·b + 400) of the network's result. So after the run the result array holds the
  network's result, and the argument arrays are unchanged.
-/
import proofs.«157266_g59210419142979_cont_9to1c4b_462_8_alg».proof.Proof.KIFrame
import proofs.«157266_g59210419142979_cont_9to1c4b_462_8_alg».proof.Proof.KIBridgeOut

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ) (ρ : Dev nD → PrngReg)

/-- The network's result from the argument arrays of core `c`. -/
def result (c : Dev nD) : S10000x64.Idx → EReal := Cert.Gcn.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- What a point of the second pass writes back is its block of the network's result. -/
theorem flushed_eq (c : Dev nD) (t : Fin cfg0.N) (hf : (cfg0.win 8).flush t = true) :
    (dats m 0 c).flushed 8 t = ((cfg0.win 8).blk t).view.read (Elt Ideal) (result m c) := by
  have ht : 25 ≤ t.val := (flush8_iff t).mp hf
  show (cfg0.win 8).cut (grid0.coords t) ((dats m 0 c).after 8 t) = _
  rw [after8]
  exact outBlk_read m c t ht

/-- The result array after the run is the network's result. -/
theorem final (c : Dev nD) : (dats m 0 c).arrAt 8 cfg0.N = result m c :=
  (dats m 0 c).arrAt_eq_of_cover 8 (result m c) (flushed_eq m c) (fun i => blk8_cover i)

/-- Every weakly fair execution of @main terminates with the result array at the network's result and the argument
    arrays as launched. -/
theorem run_value : θ_run defs (onTc (τ := τ) (main (F := Ideal))) ⟨m, fun _ => 0, ρ⟩ (fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 8).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c),
      ((h c).1 5).trans (((dats m 0 c).arrAt_in 5 rfl _).trans ((A_eq m c 5).trans (V_main_arg5 m c))),
      ((h c).1 4).trans (((dats m 0 c).arrAt_in 4 rfl _).trans ((A_eq m c 4).trans (V_main_arg6 m c))),
      ((h c).2 main_arg7 (Pipeline.mem_restRefs_of main_arg7 (by decide) (by decide))).trans (V_main_arg7 m c)⟩)
    (run_main m ρ)

end Cert.KernelIdeal.Body

end
-- ==== Proof.RefAlgebra.lean ====
/-
  The one algebraic law between the two arrangements of the first layer's support: over a finite index set, for
  families of extended reals that are all (coercions of) real numbers,
      (∑ k, x k * w k) + (∑ k, x k * w' k) = ∑ k, x k * (w k + w' k).
  Term by term this is the distributivity of the reals, carried through the coercion; the two sums are then joined by
  the commutativity and associativity of addition on the extended reals alone. (Without finiteness the law fails on
  the extended reals: with w k = +∞ and w' k = -∞ the two sides differ.)
-/
import Idealize.ShloMosaic.PureOps.Ideal

noncomputable section

open scoped BigOperators

namespace Cert.Gcn.Ref

/-- A real factor distributes over a sum of two reals, inside the extended reals. -/
theorem mul_add_of_real (x w w' : EReal) (hx : ∃ r : ℝ, x = (r : EReal)) (hw : ∃ r : ℝ, w = (r : EReal))
    (hw' : ∃ r : ℝ, w' = (r : EReal)) : x * w + x * w' = x * (w + w') := by
  obtain ⟨a, rfl⟩ := hx
  obtain ⟨b, rfl⟩ := hw
  obtain ⟨c, rfl⟩ := hw'
  exact_mod_cast (mul_add a b c).symm

/-- The sum of two contractions against the same real-valued row is the contraction against the sum of the columns. -/
theorem sum_mul_add_of_real {ι : Type*} [Fintype ι] (x w w' : ι → EReal) (hx : ∀ k, ∃ r : ℝ, x k = (r : EReal))
    (hw : ∀ k, ∃ r : ℝ, w k = (r : EReal)) (hw' : ∀ k, ∃ r : ℝ, w' k = (r : EReal)) :
    (∑ k, x k * w k) + (∑ k, x k * w' k) = ∑ k, x k * (w k + w' k) := by
  rw [← Finset.sum_add_distrib]
  exact Finset.sum_congr rfl fun k _ => mul_add_of_real _ _ _ (hx k) (hw k) (hw' k)

end Cert.Gcn.Ref

end
-- ==== Proof.RefValue.lean ====
/-
  The reference's stages, read index by index, are the layers of the specification. Each stage of the reference is a
  contraction ∑ k, l (row, k) * r (k, column), an elementwise sum or maximum, or a broadcast of a bias along the rows;
  read at an index (i 0, i 1) they are, in order:
    stage 2  = x·W1 + x·Wh1           = support1  — here, and only here, the algebraic law is used: for real-valued
                                                    x, W1, Wh1 the sum of the two contractions is the contraction
                                                    against W1 + Wh1;
    stage 7  = max (adj·stage 2 + b1) 0 = hidden;
    stage 9  = x·Wh2                   = resid;
    stage 10 = stage 7·W2 + stage 9    = support2;
    stage 14 = adj·stage 10 + b2       = out.
  The index functions of the stages (row of the left operand, column of the right, the bias's coordinate) are
  identified with the coordinate constructors once, below.
-/
import proofs.«157266_g59210419142979_cont_9to1c4b_462_8_alg».proof.Proof.Gen.ReferenceIdeal.Read
import proofs.«157266_g59210419142979_cont_9to1c4b_462_8_alg».proof.Proof.Spec
import proofs.«157266_g59210419142979_cont_9to1c4b_462_8_alg».proof.Proof.RefAlgebra

noncomputable section

open scoped BigOperators

namespace Cert.Gcn.Ref

open Cert.ReferenceIdeal Cert.ReferenceIdeal.Gen Cert.ReferenceIdeal.Read Idealize.ShloMosaic Idealize.ShloMosaic.ValueIdx

/-! ## The stages' index functions are the coordinate constructors -/

/-- Row `i 0`, contracted coordinate `k`, of the node features. -/
theorem lidx_v0 (i : S10000x64.Idx) (k : Fin 128) : lidx_main_v0 i k = ix2 (n0 := 10000) (n1 := 128) (i 0) k :=
  funext fun a => Fin.ext (by match a with | ⟨0, _⟩ => rfl | ⟨1, _⟩ => rfl)
/-- Contracted coordinate `k`, column `i 1`, of a first-layer weight. -/
theorem ridx_v0 (i : S10000x64.Idx) (k : Fin 128) : ridx_main_v0 i k = ix2 (n0 := 128) (n1 := 64) k (i 1) :=
  funext fun a => Fin.ext (by match a with | ⟨0, _⟩ => rfl | ⟨1, _⟩ => rfl)
theorem lidx_v1 (i : S10000x64.Idx) (k : Fin 128) : lidx_main_v1 i k = ix2 (n0 := 10000) (n1 := 128) (i 0) k :=
  funext fun a => Fin.ext (by match a with | ⟨0, _⟩ => rfl | ⟨1, _⟩ => rfl)
theorem ridx_v1 (i : S10000x64.Idx) (k : Fin 128) : ridx_main_v1 i k = ix2 (n0 := 128) (n1 := 64) k (i 1) :=
  funext fun a => Fin.ext (by match a with | ⟨0, _⟩ => rfl | ⟨1, _⟩ => rfl)
theorem lidx_v9 (i : S10000x64.Idx) (k : Fin 128) : lidx_main_v9 i k = ix2 (n0 := 10000) (n1 := 128) (i 0) k :=
  funext fun a => Fin.ext (by match a with | ⟨0, _⟩ => rfl | ⟨1, _⟩ => rfl)
theorem ridx_v9 (i : S10000x64.Idx) (k : Fin 128) : ridx_main_v9 i k = ix2 (n0 := 128) (n1 := 64) k (i 1) :=
  funext fun a => Fin.ext (by match a with | ⟨0, _⟩ => rfl | ⟨1, _⟩ => rfl)
/-- Row `i 0`, contracted node `k`, of the adjacency. -/
theorem lidx_v3 (i : S10000x64.Idx) (k : Fin 10000) : lidx_main_v3 i k = ix2 (n0 := 10000) (n1 := 10000) (i 0) k :=
  funext fun a => Fin.ext (by match a with | ⟨0, _⟩ => rfl | ⟨1, _⟩ => rfl)
/-- Contracted node `k`, column `i 1`, of a support. -/
theorem ridx_v3 (i : S10000x64.Idx) (k : Fin 10000) : ridx_main_v3 i k = ix2 (n0 := 10000) (n1 := 64) k (i 1) :=
  funext fun a => Fin.ext (by match a with | ⟨0, _⟩ => rfl | ⟨1, _⟩ => rfl)
theorem lidx_v11 (i : S10000x64.Idx) (k : Fin 10000) : lidx_main_v11 i k = ix2 (n0 := 10000) (n1 := 10000) (i 0) k :=
  funext fun a => Fin.ext (by match a with | ⟨0, _⟩ => rfl | ⟨1, _⟩ => rfl)
theorem ridx_v11 (i : S10000x64.Idx) (k : Fin 10000) : ridx_main_v11 i k = ix2 (n0 := 10000) (n1 := 64) k (i 1) :=
  funext fun a => Fin.ext (by match a with | ⟨0, _⟩ => rfl | ⟨1, _⟩ => rfl)
/-- Row `i 0`, contracted hidden unit `k`, of the first layer's output. -/
theorem lidx_v8 (i : S10000x64.Idx) (k : Fin 64) : lidx_main_v8 i k = ix2 (n0 := 10000) (n1 := 64) (i 0) k :=
  funext fun a => Fin.ext (by match a with | ⟨0, _⟩ => rfl | ⟨1, _⟩ => rfl)
/-- Contracted hidden unit `k`, column `i 1`, of the second-layer weight. -/
theorem ridx_v8 (i : S10000x64.Idx) (k : Fin 64) : ridx_main_v8 i k = ix2 (n0 := 64) (n1 := 64) k (i 1) :=
  funext fun a => Fin.ext (by match a with | ⟨0, _⟩ => rfl | ⟨1, _⟩ => rfl)
/-- A bias broadcast along the rows is read at the column. -/
theorem idx_v4_v5 (i : S10000x64.Idx) : idx_main_v4 (idx_main_v5 i) = ix1 (n := 64) (i 1) :=
  funext fun a => Fin.ext (by match a with | ⟨0, _⟩ => rfl)
theorem idx_v12_v13 (i : S10000x64.Idx) : idx_main_v12 (idx_main_v13 i) = ix1 (n := 64) (i 1) :=
  funext fun a => Fin.ext (by match a with | ⟨0, _⟩ => rfl)

/-! ## The stages are the layers -/

section
variable (x0 : (⟨S10000x10000, .f32⟩ : BufTy).Contents (Elt Ideal)) (x1 : (⟨S10000x128, .f32⟩ : BufTy).Contents (Elt Ideal))
  (x2 x3 : (⟨S128x64, .f32⟩ : BufTy).Contents (Elt Ideal)) (x4 : (⟨S64, .f32⟩ : BufTy).Contents (Elt Ideal))
  (x5 : (⟨S64x64, .f32⟩ : BufTy).Contents (Elt Ideal)) (x6 : (⟨S128x64, .f32⟩ : BufTy).Contents (Elt Ideal))
  (x7 : (⟨S64, .f32⟩ : BufTy).Contents (Elt Ideal))

/-- Stage 2, the sum of the two contractions x·W1 and x·Wh1, is the first layer's support x·(W1 + Wh1) when the three
    arrays hold real numbers. -/
theorem stage2_eq (hx : ∀ j, ∃ r : ℝ, x1 j = (r : EReal)) (hw : ∀ j, ∃ r : ℝ, x2 j = (r : EReal))
    (hw' : ∀ j, ∃ r : ℝ, x3 j = (r : EReal)) :
    val_main_v2 (F := Ideal) x1 x2 x3 = Cert.Gcn.support1 x1 x2 x3 := by
  funext i
  rw [val_main_v2_apply, val_main_v0_apply, val_main_v1_apply]
  simp only [lidx_v0, ridx_v0, lidx_v1, ridx_v1, Ideal.addf_def]
  exact sum_mul_add_of_real (fun k : Fin 128 => x1 (ix2 (i 0) k)) (fun k => x2 (ix2 k (i 1))) (fun k => x3 (ix2 k (i 1)))
    (fun _ => hx _) (fun _ => hw _) (fun _ => hw' _)

/-- Stage 9 is the residual term x·Wh2. -/
theorem stage9_eq : val_main_v9 (F := Ideal) x1 x6 = Cert.Gcn.resid x1 x6 := by
  funext i
  rw [val_main_v9_apply]
  simp only [lidx_v9, ridx_v9]
  rfl

/-- Stage 7 is the first layer's output max (adj·support1 + b1) 0. -/
theorem stage7_eq (hx : ∀ j, ∃ r : ℝ, x1 j = (r : EReal)) (hw : ∀ j, ∃ r : ℝ, x2 j = (r : EReal))
    (hw' : ∀ j, ∃ r : ℝ, x3 j = (r : EReal)) :
    val_main_v7 (F := Ideal) x0 x1 x2 x3 x4 = Cert.Gcn.hidden x0 x1 x2 x3 x4 := by
  funext i
  rw [val_main_v7_apply, val_main_v6_apply, val_main_v3_apply, val_main_v5_apply, val_main_v4_apply,
    val_main_call0_v0_apply, val_main_call0_cst_apply, stage2_eq x1 x2 x3 hx hw hw']
  simp only [lidx_v3, ridx_v3, idx_v4_v5, Ideal.addf_def, Ideal.maximumf_def, Ideal.ofBits_def]
  rfl

/-- Stage 10 is the second layer's support hidden·W2 + resid. -/
theorem stage10_eq (hx : ∀ j, ∃ r : ℝ, x1 j = (r : EReal)) (hw : ∀ j, ∃ r : ℝ, x2 j = (r : EReal))
    (hw' : ∀ j, ∃ r : ℝ, x3 j = (r : EReal)) :
    val_main_v10 (F := Ideal) x0 x1 x2 x3 x4 x5 x6 = Cert.Gcn.support2 x0 x1 x2 x3 x4 x5 x6 := by
  funext i
  rw [val_main_v10_apply, val_main_v8_apply, stage7_eq x0 x1 x2 x3 x4 hx hw hw', stage9_eq x1 x6]
  simp only [lidx_v8, ridx_v8, Ideal.addf_def]
  rfl

/-- Stage 14, the reference's result, is the network's result adj·support2 + b2. -/
theorem stage14_eq (hx : ∀ j, ∃ r : ℝ, x1 j = (r : EReal)) (hw : ∀ j, ∃ r : ℝ, x2 j = (r : EReal))
    (hw' : ∀ j, ∃ r : ℝ, x3 j = (r : EReal)) :
    val_main_v14 (F := Ideal) x0 x1 x2 x3 x4 x5 x6 x7 = Cert.Gcn.out x0 x1 x2 x3 x4 x5 x6 x7 := by
  funext i
  rw [val_main_v14_apply, val_main_v11_apply, val_main_v13_apply, val_main_v12_apply,
    stage10_eq x0 x1 x2 x3 x4 x5 x6 hx hw hw']
  simp only [lidx_v11, ridx_v11, idx_v12_v13, Ideal.addf_def]
  rfl

end

end Cert.Gcn.Ref

end
-- ==== Proof.RefFinite.lean ====
/-
  From the precondition to real numbers. The precondition is the conjunction, over the eight argument arrays, of
  "every element's absolute value lies strictly below +∞"; each conjunct is an `and`-reduction over all axes of the
  elementwise comparison |a i| < +∞. On the extended reals |a| = max a (-a), so |a| < +∞ excludes a = +∞ and a = -∞:
  the element is (the coercion of) a real number. Read here for the three arrays the algebraic law needs: the node
  features and the two first-layer weights.
-/
import proofs.«157266_g59210419142979_cont_9to1c4b_462_8_alg».proof.Pre_finite_inputs
import Idealize.ShloMosaic.Lib.ReduceAll
import Idealize.ShloMosaic.Lib.ValueIdx

noncomputable section

namespace Cert.Gcn.Ref

open Idealize.ShloMosaic Idealize.ShloMosaic.ValueIdx Cert.Pre_finite_inputs

/-- The scalar shape has exactly one index. -/
instance : Subsingleton S_.Idx := ⟨fun a b => funext fun d => d.elim0⟩

/-- The word `0x7F800000` denotes +∞. -/
theorem ofBits_inf : Ideal.ofBits .f32 0x7F800000#32 = ⊤ := by simp [Ideal.ofBits, Ideal.ieee]

/-- An extended real whose absolute value `max x (-x)` lies strictly below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- A one-bit word made from a decision is `1` exactly when the decision holds. -/
theorem ofBool_decide_eq_one {p : Prop} [Decidable p] (h : BitVec.ofBool (decide p) = 1#1) : p := by
  by_cases hp : p
  · exact hp
  · rw [decide_eq_false hp] at h; exact absurd h (by decide)

/-- Where the elementwise comparison `|a| < +∞` holds (is the bit `1`), the element is a real number. -/
theorem real_of_cmp {s : Shape} (hb : S_.BroadcastsInDim s (![] : Fin 0 → Fin s.rank)) (a : FVec Ideal s .f32) (i : s.Idx)
    (h : cmpf .olt (Host.absf a) (broadcastInDim s ![] hb (constant (F := Ideal) S_ .f32 0x7F800000#32)) i = 1#1) :
    ∃ r : ℝ, a i = (r : EReal) := by
  have h' : BitVec.ofBool (decide (max (a i) (-(a i)) < Ideal.ofBits .f32 0x7F800000#32)) = 1#1 := h
  rw [ofBits_inf] at h'
  exact real_of_abs_lt_top _ (ofBool_decide_eq_one h')

variable [Facts]
open Facts

/-- Under the precondition, every element of the node features and of the two first-layer weights is a real number. -/
theorem finite_of_pre (a0 : FVec Ideal S10000x10000 .f32) (a1 : FVec Ideal S10000x128 .f32) (a2 a3 : FVec Ideal S128x64 .f32)
    (a4 : FVec Ideal S64 .f32) (a5 : FVec Ideal S64x64 .f32) (a6 : FVec Ideal S128x64 .f32) (a7 : FVec Ideal S64 .f32)
    (hpre : fn (F := Ideal) a0 a1 a2 a3 a4 a5 a6 a7 = fun _ => 1#1) :
    (∀ i, ∃ r : ℝ, a1 i = (r : EReal)) ∧ (∀ i, ∃ r : ℝ, a2 i = (r : EReal)) ∧ (∀ i, ∃ r : ℝ, a3 i = (r : EReal)) := by
  have h := congrFun hpre ix0
  dsimp only [fn, fn_part1, fn_part2] at h
  obtain ⟨h, -⟩ := IntOp.andi_eq_one.1 h
  obtain ⟨h, -⟩ := IntOp.andi_eq_one.1 h
  obtain ⟨h, -⟩ := IntOp.andi_eq_one.1 h
  obtain ⟨h, -⟩ := IntOp.andi_eq_one.1 h
  obtain ⟨h, h3⟩ := IntOp.andi_eq_one.1 h
  obtain ⟨h, h2⟩ := IntOp.andi_eq_one.1 h
  obtain ⟨-, h1⟩ := IntOp.andi_eq_one.1 h
  exact ⟨fun i => real_of_cmp _ a1 i (Host.reduce_andi_all _ _ _ _ _ h1 i),
    fun i => real_of_cmp _ a2 i (Host.reduce_andi_all _ _ _ _ _ h2 i),
    fun i => real_of_cmp _ a3 i (Host.reduce_andi_all _ _ _ _ _ h3 i)⟩

end Cert.Gcn.Ref

end
-- ==== Proof.RefOut.lean ====
/-
  The reference computes the specification. Under the precondition every entry of the node features and of the two
  first-layer weights is a real number, so the reference's sum of contractions x·W1 + x·Wh1 is the contraction
  x·(W1 + Wh1); stage by stage the reference's result is then the two-layer graph convolution `Cert.Gcn.out` of
  its argument arrays. (The composed term of the reference's operations is that last stage by definition.)
-/
import proofs.«157266_g59210419142979_cont_9to1c4b_462_8_alg».proof.Proof.RefValue
import proofs.«157266_g59210419142979_cont_9to1c4b_462_8_alg».proof.Proof.RefFinite

noncomputable section

namespace Cert.Gcn.Ref

open Cert.ReferenceIdeal Cert.ReferenceIdeal.Gen Idealize.ShloMosaic

variable [Cert.Pre_finite_inputs.Facts]
variable (x0 : (⟨S10000x10000, .f32⟩ : BufTy).Contents (Elt Ideal)) (x1 : (⟨S10000x128, .f32⟩ : BufTy).Contents (Elt Ideal))
  (x2 x3 : (⟨S128x64, .f32⟩ : BufTy).Contents (Elt Ideal)) (x4 : (⟨S64, .f32⟩ : BufTy).Contents (Elt Ideal))
  (x5 : (⟨S64x64, .f32⟩ : BufTy).Contents (Elt Ideal)) (x6 : (⟨S128x64, .f32⟩ : BufTy).Contents (Elt Ideal))
  (x7 : (⟨S64, .f32⟩ : BufTy).Contents (Elt Ideal))

/-- Under the precondition, the reference's last stage is the network's result. -/
theorem reference_eq_out (hpre : Cert.Pre_finite_inputs.fn (F := Ideal) x0 x1 x2 x3 x4 x5 x6 x7 = fun _ => 1#1) :
    Cert.ReferenceIdeal.Read.val_main_v14 (F := Ideal) x0 x1 x2 x3 x4 x5 x6 x7 = Cert.Gcn.out x0 x1 x2 x3 x4 x5 x6 x7 := by
  obtain ⟨hx, hw, hw'⟩ := finite_of_pre x0 x1 x2 x3 x4 x5 x6 x7 hpre
  exact stage14_eq x0 x1 x2 x3 x4 x5 x6 x7 hx hw hw'

end Cert.Gcn.Ref

end
-- ==== Proof.lean ====
/-
  The certificate's claims for the two-layer graph convolution kernel against its reference.
  The kernel runs the whole network in one pallas_call on a 2 × 25 grid: the first point also computes the first
  support x · (W1 + Wh1) and the residual x · Wh2 into scratch; the first pass (points 0 … 24) computes, 400 rows at
  a time, the second support relu(adj · support1 + b1) · W2 + residual into a third scratch; the second pass (points
  25 … 49) computes adj · support2 + b2, 400 rows at a time, into the result. The frames of the word-level and of the
  idealized kernel are proved with every buffer's contents named point by point; the reference's frame is its run with
  the result dropped; the ideal pass rewrote nothing. On the extended reals the result array ends at the network's
  result as a function of the argument arrays, and the reference computes the same function: its only difference is
  x · W1 + x · Wh1 in place of x · (W1 + Wh1), equal because every input is finite.
-/
import proofs.«157266_g59210419142979_cont_9to1c4b_462_8_alg».proof.Defs
import proofs.«157266_g59210419142979_cont_9to1c4b_462_8_alg».proof.Proof.Gen.Kernel
import proofs.«157266_g59210419142979_cont_9to1c4b_462_8_alg».proof.Proof.Gen.KernelIdeal
import proofs.«157266_g59210419142979_cont_9to1c4b_462_8_alg».proof.Proof.Gen.ReferenceIdeal
import proofs.«157266_g59210419142979_cont_9to1c4b_462_8_alg».proof.Proof.Gen.Pre_finite_inputs
import proofs.«157266_g59210419142979_cont_9to1c4b_462_8_alg».proof.Proof.Gen.ReferenceIdeal.Run
import proofs.«157266_g59210419142979_cont_9to1c4b_462_8_alg».proof.Proof.Gen.ReferenceIdeal.Read
import proofs.«157266_g59210419142979_cont_9to1c4b_462_8_alg».proof.Proof.KBFrame
import proofs.«157266_g59210419142979_cont_9to1c4b_462_8_alg».proof.Proof.KIFinal
import proofs.«157266_g59210419142979_cont_9to1c4b_462_8_alg».proof.Proof.RefOut
import Idealize.ShloMosaic.Adequacy
import Idealize.ShloMosaic.Init

noncomputable section

namespace Cert.Proof

open Idealize.ShloMosaic Idealize.SL.Sem Idealize.ShloMosaic.TcCoe

/-- The word-level kernel terminates without a fault and leaves its arguments unchanged. -/
theorem frame_k : Cert.frame_Kernel := fun m ρ _ => Cert.Kernel.Body.frame (F := Bits) m ρ

/-- So does the idealized kernel. -/
theorem frame_ki : Cert.frame_KernelIdeal := fun m ρ _ => Cert.KernelIdeal.Body.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both idealized programs end with the result at the network's result of the (agreeing) argument arrays. -/
theorem algebraic : Cert.algebraic_KernelIdeal_ReferenceIdeal := by
  intro m ρ m' ρ' hpre hagree
  refine ⟨fun c => Cert.KernelIdeal.Body.result m c, Cert.KernelIdeal.Body.run_value m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v14_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact Cert.Gcn.Ref.reference_eq_out _ _ _ _ _ _ _ _ (hpre c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
